-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40x128 .f32) (main_arg6 : FVec F S40 .f32) (main_arg7 : FVec F S40x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S40x128 .f32 := Host.absf main_arg5
  let main_cst_6 : FVec F S_ .f32 := constant S_ .f32 0x7F800000#32
  let main_v20 : FVec F S40x128 .f32 := broadcastInDim S40x128 ![] bcast_S_S40x128 main_cst_6
  let main_v21 : IVec S40x128 1 := cmpf .olt main_v19 main_v20
  let main_c_7 : IVec S_ 1 := constantI S_ 1 1#1
  let main_v22 : IVec S_ 1 := (fun x v => Host.reduce IntOp.andi x v reducesTo_S40x128_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S40x128 .f32 := Host.absf main_arg7
  let main_cst_10 : FVec F S_ .f32 := constant S_ .f32 0x7F800000#32
  let main_v30 : FVec F S40x128 .f32 := broadcastInDim S40x128 ![] bcast_S_S40x128 main_cst_10
  let main_v31 : IVec S40x128 1 := cmpf .olt main_v29 main_v30
  let main_c_11 : IVec S_ 1 := constantI S_ 1 1#1
  let main_v32 : IVec S_ 1 := (fun x v => Host.reduce IntOp.andi x v reducesTo_S40x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S40x128 .f32) (main_arg6 : FVec F S40 .f32) (main_arg7 : FVec F S40x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S128x40 : Shape := ⟨2, ![128, 40]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩

abbrev nBuf : Space → Nat
  | .hbm => 64
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S40x128, .f32⟩
  | .hbm, ⟨6, _⟩ => ⟨S40, .f32⟩
  | .hbm, ⟨7, _⟩ => ⟨S40x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S128x128, .f32⟩
  | .hbm, ⟨39, _⟩ => ⟨S128x128, .bf16⟩
  | .hbm, ⟨40, _⟩ => ⟨S128x128, .f32⟩
  | .hbm, ⟨41, _⟩ => ⟨S128x128, .bf16⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S128x40, .f32⟩
  | .hbm, ⟨58, _⟩ => ⟨S128x40, .bf16⟩
  | .hbm, ⟨59, _⟩ => ⟨S128x40, .f32⟩
  | .hbm, ⟨60, _⟩ => ⟨S128x40, .bf16⟩
  | .hbm, ⟨61, _⟩ => ⟨S1x40, .f32⟩
  | .hbm, ⟨62, _⟩ => ⟨S100000x40, .f32⟩
  | .hbm, ⟨63, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x40, .bf16⟩
  | .local _ .vmem, ⟨18, _⟩ => ⟨S128x40, .bf16⟩
  | .local _ .vmem, ⟨19, _⟩ => ⟨S1x40, .f32⟩
  | .local _ .vmem, ⟨20, _⟩ => ⟨S5000x40, .f32⟩
  | .local _ .vmem, ⟨21, _⟩ => ⟨S5000x40, .f32⟩
  | .local _ .vmem, ⟨22, _⟩ => ⟨S5000x40, .f32⟩
  | .local _ .vmem, ⟨23, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44_0 : Ref sig .tc := ⟨.hbm, 62, rfl⟩
abbrev main_v44_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x40 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x40 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x40 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S40x128_S128x40_1_0 : S40x128.Transposes [1, 0] S128x40
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  reduces_S5000x40_S5000 : S5000x40.Reduces [1] S5000
  shapeCasts_S5000_S5000x1 : S5000.ShapeCasts S5000x1
  broadcasts_S5000x1_S5000x40 : S5000x1.Broadcasts S5000x40
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .bf16 = 32 ∨ (Rect.block (s := S128x40) S128x40.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x40.size a ≤ S128x40.size a
  hwx1_4 : ∀ i : grid1.Coords, EltTy.bits .bf16 = 32 ∨ (Rect.block (s := S128x40) S128x40.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x40.size a ≤ S1x40.size a
  hwx1_5 : ∀ i : grid1.Coords, EltTy.bits .f32 = 32 ∨ (Rect.block (s := S1x40) S1x40.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x40.size a ≤ S100000x40.size a
  hwx1_6 : ∀ i : grid1.Coords, EltTy.bits .f32 = 32 ∨ (Rect.block (s := S100000x40) S5000x40.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x40.size a ≤ S100000x40.size a
  hwx1_7 : ∀ i : grid1.Coords, EltTy.bits .f32 = 32 ∨ (Rect.block (s := S100000x40) S5000x40.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S128x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44_0) S5000x40.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v44_1) S5000x40.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x40 : Shape := ⟨2, ![128, 40]⟩
abbrev S100000x40 : Shape := ⟨2, ![100000, 40]⟩
abbrev S1x40 : Shape := ⟨2, ![1, 40]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S40x128, .f32⟩
  | .hbm, ⟨6, _⟩ => ⟨S40, .f32⟩
  | .hbm, ⟨7, _⟩ => ⟨S40x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x40, .f32⟩
  | .hbm, ⟨74, _⟩ => ⟨S100000x40, .f32⟩
  | .hbm, ⟨75, _⟩ => ⟨S1x40, .f32⟩
  | .hbm, ⟨76, _⟩ => ⟨S100000x40, .f32⟩
  | .hbm, ⟨77, _⟩ => ⟨S100000x40, .f32⟩
  | .hbm, ⟨78, _⟩ => ⟨S128x40, .f32⟩
  | .hbm, ⟨79, _⟩ => ⟨S100000x40, .f32⟩
  | .hbm, ⟨80, _⟩ => ⟨S100000x40, .f32⟩
  | .hbm, ⟨81, _⟩ => ⟨S_, .f32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x40, .f32⟩
  | .hbm, ⟨88, _⟩ => ⟨S100000x40, .f32⟩
  | .hbm, ⟨89, _⟩ => ⟨S100000x40, .f32⟩
  | .hbm, ⟨90, _⟩ => ⟨S_, .f32⟩
  | .hbm, ⟨91, _⟩ => ⟨S100000, .f32⟩
  | .hbm, ⟨92, _⟩ => ⟨S100000x1, .f32⟩
  | .hbm, ⟨93, _⟩ => ⟨S100000x1, .f32⟩
  | .hbm, ⟨94, _⟩ => ⟨S100000x40, .f32⟩
  | .hbm, ⟨95, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v59 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.RefSpec.lean ====
/-
  The reference program's stages as whole-array terms on the extended reals, named once: the edge list's two rows as
  index columns, the neighbour sum of a feature matrix (gather the source rows, scatter-add them at the destination
  rows), the neighbour count floored at one, one graph-convolution layer
  `(sum / count) · Wlᵀ + bias + X · Wrᵀ`, the rectifier between the two layers, and the shifted log-softmax of the
  second layer's rows. The reference's two results are these composed.
-/
import proofs.«172431_j71287867179094_2_alg».proof.Proof.Gen.ReferenceIdeal
import Idealize.ShloMosaic.PureOps.Ideal

noncomputable section

namespace Cert.RefSpec

open Cert.ReferenceIdeal Cert.ReferenceIdeal.Gen Idealize.ShloMosaic

/-- An index array of 32-bit integers of shape `s`. -/
abbrev IArr (s : Shape) : Type := (⟨s, .i32⟩ : BufTy).Contents (Elt Ideal)

/-- Row 0 of the edge list: every edge's source node. -/
def srcRow (E : IArr S2x1600000) : IArr S1600000 :=
  shapeCast _ (extractStridedSlice S1x1600000 ![0, 0] E slices_S2x1600000_S1x1600000_0_0) shapeCasts_S1x1600000_S1600000

/-- Row 1 of the edge list: every edge's destination node. -/
def dstRow (E : IArr S2x1600000) : IArr S1600000 :=
  shapeCast _ (extractStridedSlice S1x1600000 ![1, 0] E slices_S2x1600000_S1x1600000_1_0) shapeCasts_S1x1600000_S1600000

/-- Source nodes as a column of start indices, a negative one wrapped once by the node count. -/
def srcColOf (s : IArr S1600000) : IArr S1600000x1 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Destination nodes as a column of scatter indices. -/
def dstColOf (d : IArr S1600000) : IArr S1600000x1 :=
  broadcastInDim S1600000x1 ![0] bcast_S1600000_S1600000x1_0 d

/-- The neighbour sum over the edges `s → d`: row `v` is the sum of `X`'s rows at the sources of the edges into `v`. -/
def aggOf (s d : IArr S1600000) (X : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32)) (dstColOf d)
    (Host.gather gather_S100000x128_S1600000x1_S1600000x128_1_0_n_n_0_1_1128 X (srcColOf s))

/-- The number of edges into each node, floored at one. -/
def cmaxOf (d : IArr S1600000) : FVec Ideal S100000 .f32 :=
  maximumf
    (Host.scatterAdd scatter_S100000_S1600000x1_S1600000_n_0_0_1
      (broadcastInDim S100000 ![] bcast_S_S100000 (constant S_ .f32 0x00000000#32)) (dstColOf d)
      (broadcastInDim S1600000 ![] bcast_S_S1600000 (constant S_ .f32 0x3F800000#32)))
    (broadcastInDim S100000 ![] bcast_S_S100000 (constant S_ .f32 0x3F800000#32))

/-- That count repeated along every feature column. -/
def cfullOf (d : IArr S1600000) : FVec Ideal S100000x128 .f32 :=
  broadcastInDim S100000x128 ![0, 1] bcast_S100000x1_S100000x128_0_1
    (broadcastInDim S100000x1 ![0] bcast_S100000_S100000x1_0 (cmaxOf d))

/-- Layer 1 before the rectifier: `(M / C) · Wlᵀ + b + X · Wrᵀ`. -/
def lin1 (M X C : FVec Ideal S100000x128 .f32) (Wl : FVec Ideal S128x128 .f32) (b : FVec Ideal S128 .f32)
    (Wr : FVec Ideal S128x128 .f32) : FVec Ideal S100000x128 .f32 :=
  addf (addf (Host.dotGeneral dot_S100000x128_S128x128_S100000x128_1_0_0_1_n_n none (Host.divf M C)
        (transpose S128x128 [1, 0] Wl transposes_S128x128_S128x128_1_0))
      (broadcastInDim S100000x128 ![0, 1] bcast_S1x128_S100000x128_0_1 (broadcastInDim S1x128 ![1] bcast_S128_S1x128_1 b)))
    (Host.dotGeneral dot_S100000x128_S128x128_S100000x128_1_0_0_1_n_n none X
      (transpose S128x128 [1, 0] Wr transposes_S128x128_S128x128_1_0))

/-- The hidden features over the edges `s → d`: layer 1 of the inputs, rectified. -/
def hidOf (s d : IArr S1600000) (x0 : FVec Ideal S100000x128 .f32) (x2 : FVec Ideal S128x128 .f32) (x3 : FVec Ideal S128 .f32)
    (x4 : FVec Ideal S128x128 .f32) : FVec Ideal S100000x128 .f32 :=
  maximumf (lin1 (aggOf s d x0) x0 (cfullOf d) x2 x3 x4)
    (broadcastInDim S100000x128 ![] bcast_S_S100000x128 (constant S_ .f32 0x00000000#32))

/-- Layer 2: `(M / C) · Wlᵀ + b + H · Wrᵀ` with forty output columns. -/
def lin2 (M H C : FVec Ideal S100000x128 .f32) (Wl : FVec Ideal S40x128 .f32) (b : FVec Ideal S40 .f32)
    (Wr : FVec Ideal S40x128 .f32) : FVec Ideal S100000x40 .f32 :=
  addf (addf (Host.dotGeneral dot_S100000x128_S128x40_S100000x40_1_0_0_1_n_n none (Host.divf M C)
        (transpose S128x40 [1, 0] Wl transposes_S40x128_S128x40_1_0))
      (broadcastInDim S100000x40 ![0, 1] bcast_S1x40_S100000x40_0_1 (broadcastInDim S1x40 ![1] bcast_S40_S1x40_1 b)))
    (Host.dotGeneral dot_S100000x128_S128x40_S100000x40_1_0_0_1_n_n none H
      (transpose S128x40 [1, 0] Wr transposes_S40x128_S128x40_1_0))

/-- Layer 2 of hidden features `H` over the edges `s → d`. -/
def out0Of (s d : IArr S1600000) (H : FVec Ideal S100000x128 .f32) (x5 : FVec Ideal S40x128 .f32) (x6 : FVec Ideal S40 .f32)
    (x7 : FVec Ideal S40x128 .f32) : FVec Ideal S100000x40 .f32 :=
  lin2 (aggOf s d H) H (cfullOf d) x5 x6 x7

/-- The hidden features of the arguments. -/
def hid (x0 : FVec Ideal S100000x128 .f32) (x1 : IArr S2x1600000) (x2 : FVec Ideal S128x128 .f32) (x3 : FVec Ideal S128 .f32)
    (x4 : FVec Ideal S128x128 .f32) : FVec Ideal S100000x128 .f32 :=
  hidOf (srcRow x1) (dstRow x1) x0 x2 x3 x4

/-- The reference's first result: layer 2 of the hidden features. -/
def out0 (x0 : FVec Ideal S100000x128 .f32) (x1 : IArr S2x1600000) (x2 : FVec Ideal S128x128 .f32) (x3 : FVec Ideal S128 .f32)
    (x4 : FVec Ideal S128x128 .f32) (x5 : FVec Ideal S40x128 .f32) (x6 : FVec Ideal S40 .f32) (x7 : FVec Ideal S40x128 .f32) :
    FVec Ideal S100000x40 .f32 :=
  out0Of (srcRow x1) (dstRow x1) (hid x0 x1 x2 x3 x4) x5 x6 x7

/-- Each row less its maximum. -/
def shifted (O : FVec Ideal S100000x40 .f32) : FVec Ideal S100000x40 .f32 :=
  subf O (broadcastInDim S100000x40 ![0, 1] bcast_S100000x1_S100000x40_0_1
    (broadcastInDim S100000x1 ![0] bcast_S100000_S100000x1_0
      (maximumf (broadcastInDim S100000 ![] bcast_S_S100000 (constant S_ .f32 0xFF800000#32))
        (Host.reduce FloatOps.maximumf O (constant S_ .f32 0xFF800000#32) reducesTo_S100000x40_S100000_d1 h_S_))))

/-- The shifted log-softmax of each row: the shifted row less the logarithm of the sum of its exponentials. -/
def logsm (O : FVec Ideal S100000x40 .f32) : FVec Ideal S100000x40 .f32 :=
  subf (shifted O) (broadcastInDim S100000x40 ![0, 1] bcast_S100000x1_S100000x40_0_1
    (Host.log (broadcastInDim S100000x1 ![0] bcast_S100000_S100000x1_0
      (Host.reduceAdd (Host.exp (shifted O)) (constant S_ .f32 0x00000000#32) reducesTo_S100000x40_S100000_d1 h_S_))))

end Cert.RefSpec

end
-- ==== Proof.RefRun.lean ====
/-
  The reference program's run, read back: its @main is a straight line of host operations, so every weakly fair
  execution terminates with each buffer at the fold of the operations' results over the launch contents. The line is
  cut in four — layer 1 before the rectifier, the rectifier call, layer 2 up to its output, the log-softmax call — so that each
  part's result is a short term of what the part finds; a buffer a part does not write keeps its contents through it.
-/
import proofs.«172431_j71287867179094_2_alg».proof.Proof.Gen.ReferenceIdeal
import proofs.«172431_j71287867179094_2_alg».proof.Proof.RefSpec
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 1's operations before the rectifier, in order, up to `(M / C) · Wlᵀ + b + X · Wrᵀ`. -/
abbrev opsLin1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    unary main_arg2 main_v23 ((transpose S128x128 [1, 0] · transposes_S128x128_S128x128_1_0) : (⟨S128x128, .f32⟩ : BufTy).Contents (Elt F) → (⟨S128x128, .f32⟩ : BufTy).Contents (Elt F)),
    binary main_v22 main_v23 main_v24 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v25 (broadcastInDim S1x128 ![1] bcast_S128_S1x128_1 : (⟨S128, .f32⟩ : BufTy).Contents (Elt F) → (⟨S1x128, .f32⟩ : BufTy).Contents (Elt F)),
    unary main_v25 main_v26 (broadcastInDim S100000x128 ![0, 1] bcast_S1x128_S100000x128_0_1 : (⟨S1x128, .f32⟩ : BufTy).Contents (Elt F) → (⟨S100000x128, .f32⟩ : BufTy).Contents (Elt F)),
    binary main_v24 main_v26 main_v27 (addf : (⟨S100000x128, .f32⟩ : BufTy).Contents (Elt F) → (⟨S100000x128, .f32⟩ : BufTy).Contents (Elt F) → (⟨S100000x128, .f32⟩ : BufTy).Contents (Elt F)),
    unary main_arg4 main_v28 ((transpose S128x128 [1, 0] · transposes_S128x128_S128x128_1_0) : (⟨S128x128, .f32⟩ : BufTy).Contents (Elt F) → (⟨S128x128, .f32⟩ : BufTy).Contents (Elt F)),
    binary main_arg0 main_v28 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v27 main_v29 main_v30 (addf : (⟨S100000x128, .f32⟩ : BufTy).Contents (Elt F) → (⟨S100000x128, .f32⟩ : BufTy).Contents (Elt F) → (⟨S100000x128, .f32⟩ : BufTy).Contents (Elt F)) ]

/-- The rectifier call's operations. -/
abbrev opsRelu : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v30) (TRef.of (T := ⟨S100000x128, .f32⟩) main_call0_v0) (TRef.of (T := ⟨S100000x128, .f32⟩) main_v31) maximumf ]

/-- Layer 2's operations, in order, up to the second layer's output. -/
abbrev opsLayer2 : List (HloOp τ sig (Elt F)) :=
  [ nullary main_c_4 (constantI S_ 32 0#32),
    unary main_c_4 main_v32 (broadcastInDim S1600000 ![] bcast_S_S1600000 : (⟨S_, .i32⟩ : BufTy).Contents (Elt F) → (⟨S1600000, .i32⟩ : BufTy).Contents (Elt F)),
    binary main_v1 main_v32 main_v33 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v34 (broadcastInDim S1600000 ![] bcast_S_S1600000 : (⟨S_, .i32⟩ : BufTy).Contents (Elt F) → (⟨S1600000, .i32⟩ : BufTy).Contents (Elt F)),
    binary main_v1 main_v34 main_v35 (addi : (⟨S1600000, .i32⟩ : BufTy).Contents (Elt F) → (⟨S1600000, .i32⟩ : BufTy).Contents (Elt F) → (⟨S1600000, .i32⟩ : BufTy).Contents (Elt F)),
    ternary main_v33 main_v35 main_v1 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v36 main_v37 (broadcastInDim S1600000x1 ![0] bcast_S1600000_S1600000x1_0 : (⟨S1600000, .i32⟩ : BufTy).Contents (Elt F) → (⟨S1600000x1, .i32⟩ : BufTy).Contents (Elt F)),
    binary main_v31 main_v37 main_v38 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_6 (constant S_ .f32 0x00000000#32),
    unary main_cst_6 main_v39 (broadcastInDim S100000x128 ![] bcast_S_S100000x128 : (⟨S_, .f32⟩ : BufTy).Contents (Elt F) → (⟨S100000x128, .f32⟩ : BufTy).Contents (Elt F)),
    unary main_v3 main_v40 (broadcastInDim S1600000x1 ![0] bcast_S1600000_S1600000x1_0 : (⟨S1600000, .i32⟩ : BufTy).Contents (Elt F) → (⟨S1600000x1, .i32⟩ : BufTy).Contents (Elt F)),
    ternary main_v39 main_v40 main_v38 main_v41 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_7 (constant S_ .f32 0x3F800000#32),
    unary main_cst_7 main_v42 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v43 (broadcastInDim S100000 ![] bcast_S_S100000 : (⟨S_, .f32⟩ : BufTy).Contents (Elt F) → (⟨S100000, .f32⟩ : BufTy).Contents (Elt F)),
    unary main_v3 main_v44 (broadcastInDim S1600000x1 ![0] bcast_S1600000_S1600000x1_0 : (⟨S1600000, .i32⟩ : BufTy).Contents (Elt F) → (⟨S1600000x1, .i32⟩ : BufTy).Contents (Elt F)),
    ternary main_v43 main_v44 main_v42 main_v45 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v46 (broadcastInDim S100000 ![] bcast_S_S100000 : (⟨S_, .f32⟩ : BufTy).Contents (Elt F) → (⟨S100000, .f32⟩ : BufTy).Contents (Elt F)),
    binary main_v45 main_v46 main_v47 (maximumf : (⟨S100000, .f32⟩ : BufTy).Contents (Elt F) → (⟨S100000, .f32⟩ : BufTy).Contents (Elt F) → (⟨S100000, .f32⟩ : BufTy).Contents (Elt F)),
    unary main_v47 main_v48 (broadcastInDim S100000x1 ![0] bcast_S100000_S100000x1_0 : (⟨S100000, .f32⟩ : BufTy).Contents (Elt F) → (⟨S100000x1, .f32⟩ : BufTy).Contents (Elt F)),
    unary main_v48 main_v49 (broadcastInDim S100000x128 ![0, 1] bcast_S100000x1_S100000x128_0_1 : (⟨S100000x1, .f32⟩ : BufTy).Contents (Elt F) → (⟨S100000x128, .f32⟩ : BufTy).Contents (Elt F)),
    binary main_v41 main_v49 main_v50 (Host.divf : (⟨S100000x128, .f32⟩ : BufTy).Contents (Elt F) → (⟨S100000x128, .f32⟩ : BufTy).Contents (Elt F) → (⟨S100000x128, .f32⟩ : BufTy).Contents (Elt F)),
    unary main_arg5 main_v51 ((transpose S128x40 [1, 0] · transposes_S40x128_S128x40_1_0) : (⟨S40x128, .f32⟩ : BufTy).Contents (Elt F) → (⟨S128x40, .f32⟩ : BufTy).Contents (Elt F)),
    binary main_v50 main_v51 main_v52 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg6 main_v53 (broadcastInDim S1x40 ![1] bcast_S40_S1x40_1 : (⟨S40, .f32⟩ : BufTy).Contents (Elt F) → (⟨S1x40, .f32⟩ : BufTy).Contents (Elt F)),
    unary main_v53 main_v54 (broadcastInDim S100000x40 ![0, 1] bcast_S1x40_S100000x40_0_1 : (⟨S1x40, .f32⟩ : BufTy).Contents (Elt F) → (⟨S100000x40, .f32⟩ : BufTy).Contents (Elt F)),
    binary main_v52 main_v54 main_v55 (addf : (⟨S100000x40, .f32⟩ : BufTy).Contents (Elt F) → (⟨S100000x40, .f32⟩ : BufTy).Contents (Elt F) → (⟨S100000x40, .f32⟩ : BufTy).Contents (Elt F)),
    unary main_arg7 main_v56 ((transpose S128x40 [1, 0] · transposes_S40x128_S128x40_1_0) : (⟨S40x128, .f32⟩ : BufTy).Contents (Elt F) → (⟨S128x40, .f32⟩ : BufTy).Contents (Elt F)),
    binary main_v31 main_v56 main_v57 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    binary main_v55 main_v57 main_v58 (addf : (⟨S100000x40, .f32⟩ : BufTy).Contents (Elt F) → (⟨S100000x40, .f32⟩ : BufTy).Contents (Elt F) → (⟨S100000x40, .f32⟩ : BufTy).Contents (Elt F)) ]

/-- The log-softmax call's operations, in order. -/
abbrev opsSoftmax : List (HloOp τ sig (Elt F)) :=
  [ TRef.nullary (TRef.of (T := ⟨S_, .f32⟩) main_call1_cst) (constant S_ .f32 0xFF800000#32),
    TRef.binary (TRef.of (T := ⟨S100000x40, .f32⟩) main_v58) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v58) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v59) subf ]

/-- @main's operations: the four parts one after the other. -/
abbrev ops : List (HloOp τ sig (Elt F)) := opsLin1 ++ (opsRelu ++ (opsLayer2 ++ opsSoftmax))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsLin1_sub : (opsLin1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩
theorem opsRelu_sub : (opsRelu : List (HloOp τ sig (Elt F))).Forall fun op => op.bufs ⊆ tcRefs τ sig :=
  ⟨nullary_bufs_sub .., unary_bufs_sub .., binary_bufs_sub ..⟩
set_option maxRecDepth 8192 in
theorem opsLayer2_sub : (opsLayer2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩
set_option maxRecDepth 8192 in
theorem opsSoftmax_sub : (opsSoftmax : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => (List.mem_append.mp h).elim
    (List.forall_iff_forall_mem.mp opsLin1_sub op)
    fun h => (List.mem_append.mp h).elim (List.forall_iff_forall_mem.mp opsRelu_sub op)
      fun h => (List.mem_append.mp h).elim (List.forall_iff_forall_mem.mp opsLayer2_sub op) (List.forall_iff_forall_mem.mp opsSoftmax_sub op)

theorem opsLin1_fresh : ∀ op ∈ (opsLin1 : List (HloOp τ sig (Elt F))), op.fresh = ∅ := by
  intro _ h; (repeat (cases h with | head => rfl | tail _ h => ?_)); exact nomatch h
theorem opsRelu_fresh : ∀ op ∈ (opsRelu : List (HloOp τ sig (Elt F))), op.fresh = ∅ := by
  intro _ h; (repeat (cases h with | head => rfl | tail _ h => ?_)); exact nomatch h
theorem opsLayer2_fresh : ∀ op ∈ (opsLayer2 : List (HloOp τ sig (Elt F))), op.fresh = ∅ := by
  intro _ h; (repeat (cases h with | head => rfl | tail _ h => ?_)); exact nomatch h
theorem opsSoftmax_fresh : ∀ op ∈ (opsSoftmax : List (HloOp τ sig (Elt F))), op.fresh = ∅ := by
  intro _ h; (repeat (cases h with | head => rfl | tail _ h => ?_)); exact nomatch h
theorem ops_fresh : ∀ op ∈ (ops : List (HloOp τ sig (Elt F))), op.fresh = ∅ :=
  fun op h => (List.mem_append.mp h).elim (opsLin1_fresh op)
    fun h => (List.mem_append.mp h).elim (opsRelu_fresh op)
      fun h => (List.mem_append.mp h).elim (opsLayer2_fresh op) (opsSoftmax_fresh op)

/-- The buffers each part writes: every operation's own result. -/
abbrev lin1_W : List (Ref sig .tc) := [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27, main_v28, main_v29, main_v30]
abbrev relu_W : List (Ref sig .tc) := [main_call0_cst, main_call0_v0, main_v31]
abbrev layer2_W : List (Ref sig .tc) := [main_c_4, main_v32, main_v33, main_c_5, main_v34, main_v35, main_v36, main_v37, main_v38, main_cst_6, main_v39, main_v40, main_v41, main_cst_7, main_v42, main_cst_8, main_v43, main_v44, main_v45, main_cst_9, main_v46, main_v47, main_v48, main_v49, main_v50, main_v51, main_v52, main_v53, main_v54, main_v55, main_v56, main_v57, main_v58]
abbrev softmax_W : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v59]

theorem opsLin1_writes : (opsLin1 : List (HloOp τ sig (Elt F))).Forall fun op => op.writes ⊆ (lin1_W.map (Proc.devRef (τ := τ) .tc)).toFinset := by
  simp only [List.Forall, TRef.nullary, TRef.unary, TRef.binary, nullary_writes, unary_writes, binary_writes, ternary_writes, reshape_writes,
    Finset.singleton_subset_iff, List.mem_toFinset]
  repeat' apply And.intro
  all_goals exact List.mem_map_of_mem (by decide)
theorem opsRelu_writes : (opsRelu : List (HloOp τ sig (Elt F))).Forall fun op => op.writes ⊆ (relu_W.map (Proc.devRef (τ := τ) .tc)).toFinset := by
  simp only [List.Forall, TRef.nullary, TRef.unary, TRef.binary, nullary_writes, unary_writes, binary_writes, ternary_writes, reshape_writes,
    Finset.singleton_subset_iff, List.mem_toFinset]
  repeat' apply And.intro
  all_goals exact List.mem_map_of_mem (by decide)
theorem opsLayer2_writes : (opsLayer2 : List (HloOp τ sig (Elt F))).Forall fun op => op.writes ⊆ (layer2_W.map (Proc.devRef (τ := τ) .tc)).toFinset := by
  simp only [List.Forall, TRef.nullary, TRef.unary, TRef.binary, nullary_writes, unary_writes, binary_writes, ternary_writes, reshape_writes,
    Finset.singleton_subset_iff, List.mem_toFinset]
  repeat' apply And.intro
  all_goals exact List.mem_map_of_mem (by decide)
theorem opsSoftmax_writes : (opsSoftmax : List (HloOp τ sig (Elt F))).Forall fun op => op.writes ⊆ (softmax_W.map (Proc.devRef (τ := τ) .tc)).toFinset := by
  simp only [List.Forall, TRef.nullary, TRef.unary, TRef.binary, nullary_writes, unary_writes, binary_writes, ternary_writes, reshape_writes,
    Finset.singleton_subset_iff, List.mem_toFinset]
  repeat' apply And.intro
  all_goals exact List.mem_map_of_mem (by decide)

/-- A buffer a part does not write keeps its contents through it. -/
theorem lin1_keeps (W : Valuation τ sig (Elt F)) (r : Ref sig .tc) (h : r ∉ lin1_W) :
    after opsLin1 W (Proc.devRef .tc r) = W (Proc.devRef .tc r) := after_of_writes_sub opsLin1 W opsLin1_writes h
theorem relu_keeps (W : Valuation τ sig (Elt F)) (r : Ref sig .tc) (h : r ∉ relu_W) :
    after opsRelu W (Proc.devRef .tc r) = W (Proc.devRef .tc r) := after_of_writes_sub opsRelu W opsRelu_writes h
theorem layer2_keeps (W : Valuation τ sig (Elt F)) (r : Ref sig .tc) (h : r ∉ layer2_W) :
    after opsLayer2 W (Proc.devRef .tc r) = W (Proc.devRef .tc r) := after_of_writes_sub opsLayer2 W opsLayer2_writes h
theorem softmax_keeps (W : Valuation τ sig (Elt F)) (r : Ref sig .tc) (h : r ∉ softmax_W) :
    after opsSoftmax W (Proc.devRef .tc r) = W (Proc.devRef .tc r) := after_of_writes_sub opsSoftmax W opsSoftmax_writes h

/-- Running two lines one after the other folds the second over what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

end Cert.RefRun

end
-- ==== Proof.LibTypedRef.lean ====
/-
  A typed reference to a buffer (the handle an outlined function's operations use) moves contents between the value's
  type and the buffer's type along the equation of the two. Moving contents to the buffer's type and back gives them
  back unchanged, whatever the reference.
-/
import Idealize.ShloMosaic.Lib.StableHlo

namespace Cert.LibTypedRef

open Idealize.ShloMosaic Idealize.ShloMosaic.StableHlo

/-- Contents moved to a typed reference's buffer type and back are unchanged. -/
theorem ofBuf_toBuf {sig : RefSig} {T : BufTy} {Val : EltTy → Type} (x : TRef sig T) (v : T.Contents Val) :
    x.ofBuf (x.toBuf v) = v := by
  obtain ⟨ref, ty_eq, h1, h2⟩ := x
  subst ty_eq
  rfl

end Cert.LibTypedRef
-- ==== Proof.RefValue.lean ====
/-
  What the reference's run leaves. Layer 1's operations before the rectifier compute `(M / C) · Wlᵀ + b + X · Wrᵀ` of the
  arguments and the edge list's two rows; the rectifier call takes the maximum with zero of what it finds there; layer
  2's operations compute `RefSpec.out0Of` of the two rows, of the hidden features and of the last three arguments; the
  log-softmax call's compute `RefSpec.logsm` of layer 2's output (an outlined call's operations move each value to its
  buffer's type and back, which changes nothing). No part writes an argument, and the log-softmax call does not write
  layer 2's output. So every weakly fair execution ends with the two results at `RefSpec.out0` of the arguments and its
  row log-softmax, and the arguments as launched.
-/
import proofs.«172431_j71287867179094_2_alg».proof.Proof.RefRun
import proofs.«172431_j71287867179094_2_alg».proof.Proof.LibTypedRef

noncomputable section

namespace Cert.RefRun

open Cert.ReferenceIdeal Cert.ReferenceIdeal.Gen Idealize.ShloMosaic Idealize.ShloMosaic.TcCoe Idealize.SL.Sem Idealize.ShloMosaic.StableHlo

set_option maxRecDepth 16384 in
/-- Layer 1 before the rectifier. -/
theorem lin1_out (W : Valuation τ sig (Elt Ideal)) :
    after (opsLin1 (F := Ideal)) W (Proc.devRef .tc main_v30)
      = RefSpec.lin1
          (RefSpec.aggOf (RefSpec.srcRow (W (Proc.devRef .tc main_arg1))) (RefSpec.dstRow (W (Proc.devRef .tc main_arg1)))
            (W (Proc.devRef .tc main_arg0)))
          (W (Proc.devRef .tc main_arg0)) (RefSpec.cfullOf (RefSpec.dstRow (W (Proc.devRef .tc main_arg1))))
          (W (Proc.devRef .tc main_arg2)) (W (Proc.devRef .tc main_arg3)) (W (Proc.devRef .tc main_arg4)) := by
  after_results_simp <;> rfl

/-- … and the edge list's two rows. -/
theorem lin1_src (W : Valuation τ sig (Elt Ideal)) :
    after (opsLin1 (F := Ideal)) W (Proc.devRef .tc main_v1) = RefSpec.srcRow (W (Proc.devRef .tc main_arg1)) := by
  after_results_simp <;> rfl
theorem lin1_dst (W : Valuation τ sig (Elt Ideal)) :
    after (opsLin1 (F := Ideal)) W (Proc.devRef .tc main_v3) = RefSpec.dstRow (W (Proc.devRef .tc main_arg1)) := by
  after_results_simp <;> rfl

/-- The rectifier call leaves the maximum with zero of what it finds at layer 1's sum. -/
theorem relu_out (W : Valuation τ sig (Elt Ideal)) :
    after (opsRelu (F := Ideal)) W (Proc.devRef .tc main_v31)
      = (maximumf (W (Proc.devRef .tc main_v30))
          (broadcastInDim S100000x128 ![] bcast_S_S100000x128 (constant (F := Ideal) S_ .f32 0x00000000#32)) : FVec Ideal S100000x128 .f32) := by
  after_results_simp
  simp only [Cert.LibTypedRef.ofBuf_toBuf]
  rfl

set_option maxRecDepth 16384 in
/-- Layer 2 leaves its output: of the two rows, the hidden features and the last three arguments as it finds them. -/
theorem layer2_out (W : Valuation τ sig (Elt Ideal)) :
    after (opsLayer2 (F := Ideal)) W (Proc.devRef .tc main_v58)
      = RefSpec.out0Of (W (Proc.devRef .tc main_v1)) (W (Proc.devRef .tc main_v3)) (W (Proc.devRef .tc main_v31))
          (W (Proc.devRef .tc main_arg5)) (W (Proc.devRef .tc main_arg6)) (W (Proc.devRef .tc main_arg7)) := by
  after_results_simp <;> rfl

set_option maxRecDepth 16384 in
/-- The log-softmax call leaves the row log-softmax of what it finds at layer 2's output. -/
theorem softmax_out (W : Valuation τ sig (Elt Ideal)) :
    after (opsSoftmax (F := Ideal)) W (Proc.devRef .tc main_v59) = RefSpec.logsm (W (Proc.devRef .tc main_v58)) := by
  after_results_simp
  simp only [Cert.LibTypedRef.ofBuf_toBuf]
  rfl

/-- The whole line leaves, at layer 2's output, the reference's first result of the arguments. -/
theorem full_out (W : Valuation τ sig (Elt Ideal)) :
    after (ops (F := Ideal)) W (Proc.devRef .tc main_v58) = RefSpec.out0 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  show after (opsLin1 ++ (opsRelu ++ (opsLayer2 ++ opsSoftmax))) W _ = _
  rw [after_append, after_append, after_append, softmax_keeps _ main_v58 (by decide), layer2_out,
    relu_keeps _ main_v1 (by decide), relu_keeps _ main_v3 (by decide),
    relu_keeps _ main_arg5 (by decide), relu_keeps _ main_arg6 (by decide), relu_keeps _ main_arg7 (by decide), relu_out,
    lin1_src, lin1_dst, lin1_out, lin1_keeps _ main_arg5 (by decide), lin1_keeps _ main_arg6 (by decide), lin1_keeps _ main_arg7 (by decide)]
  rfl

/-- … and, at the log-softmax call's result, its row log-softmax. -/
theorem full_logsm (W : Valuation τ sig (Elt Ideal)) :
    after (ops (F := Ideal)) W (Proc.devRef .tc main_v59) = RefSpec.logsm (RefSpec.out0 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7))) := by
  show after (opsLin1 ++ (opsRelu ++ (opsLayer2 ++ opsSoftmax))) W _ = _
  rw [after_append, after_append, after_append, softmax_out, layer2_out,
    relu_keeps _ main_v1 (by decide), relu_keeps _ main_v3 (by decide),
    relu_keeps _ main_arg5 (by decide), relu_keeps _ main_arg6 (by decide), relu_keeps _ main_arg7 (by decide), relu_out,
    lin1_src, lin1_dst, lin1_out, lin1_keeps _ main_arg5 (by decide), lin1_keeps _ main_arg6 (by decide), lin1_keeps _ main_arg7 (by decide)]
  rfl

/-! No operation writes an argument. -/
theorem full_keeps_arg0 (W : Valuation τ sig (Elt Ideal)) :
    after (ops (F := Ideal)) W (Proc.devRef .tc main_arg0) = W (Proc.devRef .tc main_arg0) := by
  show after (opsLin1 ++ (opsRelu ++ (opsLayer2 ++ opsSoftmax))) W _ = _
  rw [after_append, after_append, after_append, softmax_keeps _ main_arg0 (by decide), layer2_keeps _ main_arg0 (by decide),
    relu_keeps _ main_arg0 (by decide), lin1_keeps _ main_arg0 (by decide)]
theorem full_keeps_arg1 (W : Valuation τ sig (Elt Ideal)) :
    after (ops (F := Ideal)) W (Proc.devRef .tc main_arg1) = W (Proc.devRef .tc main_arg1) := by
  show after (opsLin1 ++ (opsRelu ++ (opsLayer2 ++ opsSoftmax))) W _ = _
  rw [after_append, after_append, after_append, softmax_keeps _ main_arg1 (by decide), layer2_keeps _ main_arg1 (by decide),
    relu_keeps _ main_arg1 (by decide), lin1_keeps _ main_arg1 (by decide)]
theorem full_keeps_arg2 (W : Valuation τ sig (Elt Ideal)) :
    after (ops (F := Ideal)) W (Proc.devRef .tc main_arg2) = W (Proc.devRef .tc main_arg2) := by
  show after (opsLin1 ++ (opsRelu ++ (opsLayer2 ++ opsSoftmax))) W _ = _
  rw [after_append, after_append, after_append, softmax_keeps _ main_arg2 (by decide), layer2_keeps _ main_arg2 (by decide),
    relu_keeps _ main_arg2 (by decide), lin1_keeps _ main_arg2 (by decide)]
theorem full_keeps_arg3 (W : Valuation τ sig (Elt Ideal)) :
    after (ops (F := Ideal)) W (Proc.devRef .tc main_arg3) = W (Proc.devRef .tc main_arg3) := by
  show after (opsLin1 ++ (opsRelu ++ (opsLayer2 ++ opsSoftmax))) W _ = _
  rw [after_append, after_append, after_append, softmax_keeps _ main_arg3 (by decide), layer2_keeps _ main_arg3 (by decide),
    relu_keeps _ main_arg3 (by decide), lin1_keeps _ main_arg3 (by decide)]
theorem full_keeps_arg4 (W : Valuation τ sig (Elt Ideal)) :
    after (ops (F := Ideal)) W (Proc.devRef .tc main_arg4) = W (Proc.devRef .tc main_arg4) := by
  show after (opsLin1 ++ (opsRelu ++ (opsLayer2 ++ opsSoftmax))) W _ = _
  rw [after_append, after_append, after_append, softmax_keeps _ main_arg4 (by decide), layer2_keeps _ main_arg4 (by decide),
    relu_keeps _ main_arg4 (by decide), lin1_keeps _ main_arg4 (by decide)]
theorem full_keeps_arg5 (W : Valuation τ sig (Elt Ideal)) :
    after (ops (F := Ideal)) W (Proc.devRef .tc main_arg5) = W (Proc.devRef .tc main_arg5) := by
  show after (opsLin1 ++ (opsRelu ++ (opsLayer2 ++ opsSoftmax))) W _ = _
  rw [after_append, after_append, after_append, softmax_keeps _ main_arg5 (by decide), layer2_keeps _ main_arg5 (by decide),
    relu_keeps _ main_arg5 (by decide), lin1_keeps _ main_arg5 (by decide)]
theorem full_keeps_arg6 (W : Valuation τ sig (Elt Ideal)) :
    after (ops (F := Ideal)) W (Proc.devRef .tc main_arg6) = W (Proc.devRef .tc main_arg6) := by
  show after (opsLin1 ++ (opsRelu ++ (opsLayer2 ++ opsSoftmax))) W _ = _
  rw [after_append, after_append, after_append, softmax_keeps _ main_arg6 (by decide), layer2_keeps _ main_arg6 (by decide),
    relu_keeps _ main_arg6 (by decide), lin1_keeps _ main_arg6 (by decide)]
theorem full_keeps_arg7 (W : Valuation τ sig (Elt Ideal)) :
    after (ops (F := Ideal)) W (Proc.devRef .tc main_arg7) = W (Proc.devRef .tc main_arg7) := by
  show after (opsLin1 ++ (opsRelu ++ (opsLayer2 ++ opsSoftmax))) W _ = _
  rw [after_append, after_append, after_append, softmax_keeps _ main_arg7 (by decide), layer2_keeps _ main_arg7 (by decide),
    relu_keeps _ main_arg7 (by decide), lin1_keeps _ main_arg7 (by decide)]

/-- THE REFERENCE'S RUN: every weakly fair execution terminates with the two results at `RefSpec.out0` of the arguments and
    its row log-softmax, and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v58) = RefSpec.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v59) = RefSpec.logsm (RefSpec.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨
      (h c main_v58).trans (full_out _),
      (h c main_v59).trans (full_logsm _),
      (h c main_arg0).trans (full_keeps_arg0 _),
      (h c main_arg1).trans (full_keeps_arg1 _),
      (h c main_arg2).trans (full_keeps_arg2 _),
      (h c main_arg3).trans (full_keeps_arg3 _),
      (h c main_arg4).trans (full_keeps_arg4 _),
      (h c main_arg5).trans (full_keeps_arg5 _),
      (h c main_arg6).trans (full_keeps_arg6 _),
      (h c main_arg7).trans (full_keeps_arg7 _)⟩)
    (run_seq scopedRefs_eq scopedSems_eq defs main (fun _ => ops) main_eq (fun _ => ops_sub) m ρ (fun _ => ops_fresh))

end Cert.RefRun

end
-- ==== Proof.KRun.lean ====
/-
  The idealized kernel program's run with its two result arrays named. @main is four segments — the host operations
  before the first pallas_call, that call's grid, the host operations between the calls, the second call's grid — and
  every weakly fair execution terminates with every unscoped buffer at the last segment boundary's contents: the fold
  of the host operations' results and, for each call, of the blocks its grid points write back. Read at the second
  call's two output arrays, that is what its twenty points leave there; read at an argument array, the launch contents.
-/
import proofs.«172431_j71287867179094_2_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and anything that follows from "every unscoped buffer holds the
    last boundary's contents" holds of the final memory. -/
theorem run_read {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The run with the second pallas_call's two output arrays named — what its grid points' write-backs leave — and the
    eight argument arrays as launched. -/
theorem run_named : θ_run defs (onTc (τ := τ) (main (F := F))) ⟨m, fun _ => 0, ρ⟩ (fun r => ∀ c : Dev nD,
      r.2.mem ((c.tc : Thread nD τ).loc main_v44_0) = (dat1 (V3 m ρ) c).arrAt 6 cfg1.N
      ∧ r.2.mem ((c.tc : Thread nD τ).loc main_v44_1) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_read m ρ fun s h c =>
    ⟨(h c _ (mem_uc main_v44_0 (by decide))).trans (W4_arr m ρ c 6),
     (h c _ (mem_uc main_v44_1 (by decide))).trans (W4_arr m ρ c 7),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩

end Cert.KRun

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibRowMax.lean ====
/-
  Maxima along one axis on the extended reals. A lane maximum over the second axis of a matrix, read at a row: the
  fold of `max`, from the value of the accumulator's pattern, over that row's entries. A host reduction by maximum over
  one axis, read at a result index: the fold of `max`, from the initial value, over that axis's coordinates.
  General in the shapes.
-/
import Idealize.ShloMosaic.Lib.ValueIdx
import Idealize.ShloMosaic.PureOps.Ideal.Laws

noncomputable section

namespace Cert.LibRowMax

open Idealize.ShloMosaic Idealize.ShloMosaic.ValueIdx

/-- On the extended reals a lane maximum over the second axis of an `[a, b]` matrix is, at row `r`, the fold of `max`
    from the accumulator's value over that row's entries. -/
theorem multiReduction_maximumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  refine congrArg (fun f => (Finset.univ : Finset (Fin b)).fold max (Ideal.ofBits .f32 acc) f) (funext fun d => ?_)
  refine congrArg src (funext fun ax => Fin.ext ?_)
  match ax with
  | ⟨0, _⟩ => rfl
  | ⟨1, _⟩ => rfl

/-- On the extended reals the host's reduction by maximum over ONE axis is, at a result index `j`, the fold of `max` from
    the initial value over that axis's coordinates (the index `j` with the coordinate inserted on the reduced axis). -/
theorem hostReduce_maximumf_single {s t u : Shape} {a : Fin s.rank} (x : s.Idx → EReal) (init : u.Idx → EReal)
    (h' : s.ReducesTo [a] t) (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (fun k => x (h.lift j k)) :=
  Host.reduce_eq_fold_single (FloatOps.maximumf (F := Ideal) (φ := .f32)) x init h' h hu j

end Cert.LibRowMax

end
-- ==== Proof.Sage.lean ====
/-
  The mathematics of the graph-convolution network on the extended reals, on coordinates, and the two laws that join
  the kernel's arrangement to the reference's.

  One layer at row `r`, column `j`: the neighbour sums `A` of row `r`, scaled, times a weight column, plus the row's own
  features `X` times another weight column, plus a bias. The kernel scales by a stored reciprocal — `A · (1 / c)` with
  `c = max (count) 1` — and adds the bias last; the reference divides, `A / c`, and adds the bias between the two products.
  They agree because `c ≥ 1` is not zero, so `a · (1 / c) = a / c` (on the extended reals too: both are `a · c⁻¹`), and
  because addition of extended reals is commutative and associative. No finiteness is used.
  The row log-softmax: each entry less the row's maximum, less the logarithm of the sum of the exponentials of the
  entries so shifted.
-/
import Idealize.ShloMosaic.Lib.ValueIdx
import Idealize.ShloMosaic.Lib.IdealHost
import Idealize.ShloMosaic.PureOps.Ideal.Laws

noncomputable section

open scoped BigOperators

namespace Cert.Sage

open Idealize.ShloMosaic Idealize.ShloMosaic.ValueIdx

/-- An `[a, b]` matrix of extended reals. -/
abbrev Mat (a b : ℕ) : Type := (⟨2, ![a, b]⟩ : Shape).Idx → EReal

/-- One layer at `(r, j)` in the kernel's arrangement: the neighbour sums of row `r` each times the row's stored scale
    `I (r, 0)`, against column `j` of `Wl`; the row's features against column `j` of `Wr`; the bias row's entry `j` last. -/
def layer {n d e : ℕ} (A X : Mat n d) (I : Mat n 1) (Wl Wr : Mat d e) (B : Mat 1 e) (r : Fin n) (j : Fin e) : EReal :=
  (∑ k : Fin d, (A (ix2 r k) * I (ix2 r (0 : Fin 1))) * Wl (ix2 k j)) + (∑ k : Fin d, X (ix2 r k) * Wr (ix2 k j))
    + B (ix2 (0 : Fin 1) j)

/-- The layer reads its matrices only at row `r` (of `A`, `X`, `I`) and column `j` (of the weights and the bias): two
    families of matrices, one read at `(r, j)` and the other at `(r', j')`, that agree entry for entry there give the same value. -/
theorem layer_congr {n n' d e : ℕ} {A X : Mat n d} {I : Mat n 1} {Wl Wr : Mat d e} {B : Mat 1 e}
    {A' X' : Mat n' d} {I' : Mat n' 1} {Wl' Wr' : Mat d e} {B' : Mat 1 e} {r : Fin n} {r' : Fin n'} {j j' : Fin e}
    (hA : ∀ k, A (ix2 r k) = A' (ix2 r' k)) (hX : ∀ k, X (ix2 r k) = X' (ix2 r' k))
    (hI : I (ix2 r (0 : Fin 1)) = I' (ix2 r' (0 : Fin 1)))
    (hWl : ∀ k, Wl (ix2 k j) = Wl' (ix2 k j')) (hWr : ∀ k, Wr (ix2 k j) = Wr' (ix2 k j'))
    (hB : B (ix2 (0 : Fin 1) j) = B' (ix2 (0 : Fin 1) j')) :
    layer A X I Wl Wr B r j = layer A' X' I' Wl' Wr' B' r' j' := by
  unfold layer
  rw [hI, hB]
  congr 1
  congr 1
  · exact Finset.sum_congr rfl fun k _ => by rw [hA k, hWl k]
  · exact Finset.sum_congr rfl fun k _ => by rw [hX k, hWr k]

/-- `max c 1` is not zero. -/
theorem max_one_ne_zero (c : EReal) : max c 1 ≠ 0 :=
  (lt_of_lt_of_le zero_lt_one (le_max_right c 1)).ne'

/-- THE LAW OF THE MEAN: scaling by the stored reciprocal of `max c 1` is dividing by it. -/
theorem mul_recip_eq_div (a c : EReal) : a * Ideal.div 1 (max c 1) = Ideal.div a (max c 1) :=
  Ideal.mul_one_div (max_one_ne_zero c)

/-- THE LAW OF THE LAYER: the kernel's `(Σ (a·(1/c))·wl + Σ x·wr) + b` is the reference's `(Σ (a/c)·wl + b) + Σ x·wr`. -/
theorem layer_law {d : ℕ} (a x wl wr : Fin d → EReal) (c b : EReal) :
    (∑ k : Fin d, (a k * Ideal.div 1 (max c 1)) * wl k) + (∑ k : Fin d, x k * wr k) + b
      = ((∑ k : Fin d, Ideal.div (a k) (max c 1) * wl k) + b) + ∑ k : Fin d, x k * wr k := by
  simp only [mul_recip_eq_div]
  exact add_right_comm _ _ _

/-- The maximum of row `r`, folded from the value `lo` (the pattern of minus infinity). -/
def rowMax {n e : ℕ} (lo : EReal) (o : Fin n → Fin e → EReal) (r : Fin n) : EReal :=
  (Finset.univ : Finset (Fin e)).fold max lo (fun d => o r d)

/-- Folding the maximum from `lo` already dominates `lo`: taking the maximum with `lo` once more changes nothing. -/
theorem max_rowMax {n e : ℕ} (lo : EReal) (o : Fin n → Fin e → EReal) (r : Fin n) : max lo (rowMax lo o r) = rowMax lo o r :=
  max_eq_right ((Finset.le_fold_max lo).mpr (Or.inl le_rfl))

/-- The shifted log-softmax of row `r` at column `j`; `z` is the value the sum of exponentials starts from (zero's pattern). -/
def logsm {n e : ℕ} (lo z : EReal) (o : Fin n → Fin e → EReal) (r : Fin n) (j : Fin e) : EReal :=
  (o r j - rowMax lo o r) - Ideal.log (z + ∑ d : Fin e, Ideal.exp (o r d - rowMax lo o r))

/-- The log-softmax of a row depends on that row only. -/
theorem logsm_congr {n n' e : ℕ} (lo z : EReal) {o : Fin n → Fin e → EReal} {o' : Fin n' → Fin e → EReal} {r : Fin n} {r' : Fin n'}
    (h : ∀ d, o r d = o' r' d) {j j' : Fin e} (hj : j = j') : logsm lo z o r j = logsm lo z o' r' j' := by
  subst hj
  have hm : rowMax lo o r = rowMax lo o' r' := by
    unfold rowMax; exact congrArg (fun f => (Finset.univ : Finset (Fin e)).fold max lo f) (funext h)
  unfold logsm
  rw [hm, h j]
  congr 3
  exact Finset.sum_congr rfl fun d _ => by rw [h d]

end Cert.Sage

end
-- ==== Proof.KPay.lean ====
/-
  The two kernel bodies' arithmetic read at an entry of the block, on the extended reals.

  Both bodies compute, for the 5000 rows of a block, one layer: the block of neighbour sums times the column of stored
  scales (repeated along the 128 features), then — a change of float format being the identity here — a product with
  the first weight matrix into a zero accumulator; the block of the rows' own features against the second weight matrix
  likewise; the two products added and the bias row, repeated down the rows, added last. The first body ends with the
  maximum against zero. The second body stores the layer's value and, beside it, the shifted log-softmax of each row:
  the row's maximum (a lane maximum from minus infinity's pattern, kept as a column and repeated along the row) taken
  off, then the logarithm of the row's sum of exponentials (a lane sum from zero's pattern, again a column) taken off.
-/
import proofs.«172431_j71287867179094_2_alg».proof.Proof.Gen.KernelIdeal.Skeleton
import proofs.«172431_j71287867179094_2_alg».proof.Proof.LibPlainMatmul
import proofs.«172431_j71287867179094_2_alg».proof.Proof.LibKeepdims
import proofs.«172431_j71287867179094_2_alg».proof.Proof.LibRowMax
import proofs.«172431_j71287867179094_2_alg».proof.Proof.Sage
import Idealize.ShloMosaic.Lib.ValueLayout
import Idealize.ShloMosaic.Lib.Pipeline.Value

noncomputable section

open scoped BigOperators

namespace Cert.KPay

open Cert.KernelIdeal Cert.KernelIdeal.Gen Idealize.ShloMosaic Idealize.ShloMosaic.ValueIdx

/-- The printed contraction records are the plain matrix product's. -/
theorem dot128 : dot_S5000x128_S128x128_S5000x128_1_0_0_1_n_n = DotDims.plain 5000 128 128 := rfl
theorem dot40 : dot_S5000x128_S128x40_S5000x40_1_0_0_1_n_n = DotDims.plain 5000 128 40 := rfl

/-- The neighbour sums times the repeated scale column, at `(p, k)`: the sum at `(p, k)` times row `p`'s scale. -/
theorem scaled_at (A : FVec Ideal ⟨2, ![5000, 128]⟩ .f32) (I : FVec Ideal ⟨2, ![5000, 1]⟩ .f32)
    (hA : (⟨2, ![5000, 128]⟩ : Shape).ShapeCasts ⟨2, ![5000, 128]⟩) (hI : (⟨2, ![5000, 1]⟩ : Shape).ShapeCasts ⟨2, ![5000, 1]⟩)
    (hb : (⟨2, ![5000, 1]⟩ : Shape).Broadcasts ⟨2, ![5000, 128]⟩) (ht : FTy.bf16.bits < FTy.f32.bits) (p : Fin 5000) (k : Fin 128) :
    (truncf .bf16 (mulf (shapeCast ⟨2, ![5000, 128]⟩ A hA) (broadcastTo ⟨2, ![5000, 128]⟩ (shapeCast ⟨2, ![5000, 1]⟩ I hI) hb)) ht
        : FVec Ideal ⟨2, ![5000, 128]⟩ .bf16) (ix2 p k)
      = A (ix2 p k) * I (ix2 p (0 : Fin 1)) := by
  show (shapeCast ⟨2, ![5000, 128]⟩ A hA) (ix2 p k) * (broadcastTo ⟨2, ![5000, 128]⟩ (shapeCast ⟨2, ![5000, 1]⟩ I hI) hb) (ix2 p k) = _
  rw [shapeCast_self, shapeCast_self, LibKeepdims.broadcastTo_a1_ab_apply]

/-- ONE LAYER of a block at `(p, q)`, for any number `e` of output columns: the two products into zero accumulators added,
    the repeated bias row added last, is `Sage.layer` of the block's matrices. The rows' own features arrive as `Xb`, any
    array that reads as `X` along row `p`. -/
theorem layer_at {e : ℕ} (A X : FVec Ideal ⟨2, ![5000, 128]⟩ .f32) (Xb : FVec Ideal ⟨2, ![5000, 128]⟩ .bf16)
    (I : FVec Ideal ⟨2, ![5000, 1]⟩ .f32) (Wl Wr : FVec Ideal ⟨2, ![128, e]⟩ .bf16) (B : FVec Ideal ⟨2, ![1, e]⟩ .f32)
    (hA : (⟨2, ![5000, 128]⟩ : Shape).ShapeCasts ⟨2, ![5000, 128]⟩) (hI : (⟨2, ![5000, 1]⟩ : Shape).ShapeCasts ⟨2, ![5000, 1]⟩)
    (hb : (⟨2, ![5000, 1]⟩ : Shape).Broadcasts ⟨2, ![5000, 128]⟩) (ht : FTy.bf16.bits < FTy.f32.bits)
    (hW : (⟨2, ![128, e]⟩ : Shape).ShapeCasts ⟨2, ![128, e]⟩) (hB : (⟨2, ![1, e]⟩ : Shape).ShapeCasts ⟨2, ![1, e]⟩)
    (hbB : (⟨2, ![1, e]⟩ : Shape).Broadcasts ⟨2, ![5000, e]⟩) (p : Fin 5000) (q : Fin e)
    (hX : ∀ k : Fin 128, Xb (ix2 p k) = X (ix2 p k)) :
    addf (addf
        (matmul (DotDims.plain 5000 128 e) none
          (truncf .bf16 (mulf (shapeCast ⟨2, ![5000, 128]⟩ A hA) (broadcastTo ⟨2, ![5000, 128]⟩ (shapeCast ⟨2, ![5000, 1]⟩ I hI) hb)) ht)
          (shapeCast ⟨2, ![128, e]⟩ Wl hW) (constant ⟨2, ![5000, e]⟩ .f32 0x00000000#32))
        (matmul (DotDims.plain 5000 128 e) none Xb (shapeCast ⟨2, ![128, e]⟩ Wr hW) (constant ⟨2, ![5000, e]⟩ .f32 0x00000000#32)))
      (broadcastTo ⟨2, ![5000, e]⟩ (shapeCast ⟨2, ![1, e]⟩ B hB) hbB) (ix2 p q)
      = Sage.layer A X I Wl Wr B p q := by
  rw [addf_apply, addf_apply]
  unfold Sage.layer
  refine congrArg₂ (· + ·) (congrArg₂ (· + ·) ?_ ?_) ?_
  · refine (Cert.LibPlainMatmul.matmul_zero_apply none _ _ p q).trans (Finset.sum_congr rfl fun k _ => ?_)
    rw [scaled_at, shapeCast_self]
  · refine (Cert.LibPlainMatmul.matmul_zero_apply none _ _ p q).trans (Finset.sum_congr rfl fun k _ => ?_)
    rw [hX k, shapeCast_self]
  · rw [broadcastTo_1b_ab_apply, shapeCast_self]

end Cert.KPay

end
-- ==== Proof.KPay2.lean ====
/-
  The second kernel body's log-softmax read at an entry, on the extended reals: with `P` the block of the layer's
  values, the stored entry `(p, q)` is `P (p, q)` less row `p`'s maximum, less the logarithm of the sum over the row of
  the exponentials of its entries so shifted. The row maximum is a lane maximum from minus infinity's pattern, made a
  column and repeated along the row; the sum a lane sum (from zero, which adds nothing) made a column likewise.
-/
import proofs.«172431_j71287867179094_2_alg».proof.Proof.KPay

noncomputable section

open scoped BigOperators

namespace Cert.KPay

open Cert.KernelIdeal Cert.KernelIdeal.Gen Idealize.ShloMosaic Idealize.ShloMosaic.ValueIdx

/-- The row maximum as the body carries it — reduced along the lanes, kept as a column, repeated along the row — read at
    `(p, q)`: the fold of `max` over row `p`. -/
theorem rowmax_col_at {e : ℕ} (P : FVec Ideal ⟨2, ![5000, e]⟩ .f32) (acc : BitVec (FTy.bits .f32))
    (h : (⟨2, ![5000, e]⟩ : Shape).Reduces [1] ⟨1, ![5000]⟩) (hφ : FKind.Formats .f32) (hacc : acc = FKind.maximumf.neutral .f32 hφ)
    (hc : (⟨1, ![5000]⟩ : Shape).ShapeCasts ⟨2, ![5000, 1]⟩) (hb : (⟨2, ![5000, 1]⟩ : Shape).Broadcasts ⟨2, ![5000, e]⟩)
    (p : Fin 5000) (q : Fin e) :
    broadcastTo ⟨2, ![5000, e]⟩ (shapeCast ⟨2, ![5000, 1]⟩ (multiReduction .maximumf [1] ⟨1, ![5000]⟩ P acc h hφ hacc) hc) hb (ix2 p q)
      = Sage.rowMax (Ideal.ofBits .f32 acc) (fun r j => P (ix2 r j)) p := by
  rw [Cert.LibKeepdims.broadcastTo_a1_ab_apply, Cert.LibKeepdims.shapeCast_a_a1_apply, Cert.LibRowMax.multiReduction_maximumf_rows]
  rfl

/-- A vector's logarithm and exponential are taken entry by entry. -/
theorem log_at {s : Shape} (v : FVec Ideal s .f32) (i : s.Idx) : (log v) i = Ideal.log (v i) := rfl
theorem exp_at {s : Shape} (v : FVec Ideal s .f32) (i : s.Idx) : (exp v) i = Ideal.exp (v i) := rfl

/-- The log-softmax's last steps with the repeated row maximum an arbitrary array `M` that reads `mx` along row `p`:
    the entry `(p, q)` is `P (p, q) - mx` less the logarithm of the row's sum of `exp (P (p, d) - mx)`. -/
theorem logsoft_core {e : ℕ} (P M : FVec Ideal ⟨2, ![5000, e]⟩ .f32) (mx : EReal)
    (h : (⟨2, ![5000, e]⟩ : Shape).Reduces [1] ⟨1, ![5000]⟩)
    (hφ' : FKind.Formats .f32) (hacc' : (0x00000000#32 : BitVec (FTy.bits .f32)) = FKind.add.neutral .f32 hφ')
    (hc : (⟨1, ![5000]⟩ : Shape).ShapeCasts ⟨2, ![5000, 1]⟩) (hb : (⟨2, ![5000, 1]⟩ : Shape).Broadcasts ⟨2, ![5000, e]⟩)
    (p : Fin 5000) (q : Fin e) (hM : ∀ d : Fin e, M (ix2 p d) = mx) :
    subf (subf P M)
      (broadcastTo ⟨2, ![5000, e]⟩
        (log (shapeCast ⟨2, ![5000, 1]⟩ (multiReduction .add [1] ⟨1, ![5000]⟩ (exp (subf P M)) 0x00000000#32 h hφ' hacc') hc)) hb) (ix2 p q)
      = (P (ix2 p q) - mx) - Ideal.log (0 + ∑ d : Fin e, Ideal.exp (P (ix2 p d) - mx)) := by
  rw [subf_apply, subf_apply, hM q, Cert.LibKeepdims.broadcastTo_a1_ab_apply, log_at, Cert.LibKeepdims.shapeCast_a_a1_apply,
    Cert.LibKeepdims.multiReduction_add_rows, zero_add]
  refine congrArg (fun v => (P (ix2 p q) - mx) - Ideal.log v) (Finset.sum_congr rfl fun d _ => ?_)
  rw [exp_at, subf_apply, hM d]

/-- THE LOG-SOFTMAX of a block at `(p, q)`. -/
theorem logsoft_at {e : ℕ} (P : FVec Ideal ⟨2, ![5000, e]⟩ .f32) (acc : BitVec (FTy.bits .f32))
    (h : (⟨2, ![5000, e]⟩ : Shape).Reduces [1] ⟨1, ![5000]⟩) (hφ : FKind.Formats .f32) (hacc : acc = FKind.maximumf.neutral .f32 hφ)
    (hφ' : FKind.Formats .f32) (hacc' : (0x00000000#32 : BitVec (FTy.bits .f32)) = FKind.add.neutral .f32 hφ')
    (hc : (⟨1, ![5000]⟩ : Shape).ShapeCasts ⟨2, ![5000, 1]⟩) (hb : (⟨2, ![5000, 1]⟩ : Shape).Broadcasts ⟨2, ![5000, e]⟩)
    (p : Fin 5000) (q : Fin e) :
    subf (subf P (broadcastTo ⟨2, ![5000, e]⟩ (shapeCast ⟨2, ![5000, 1]⟩ (multiReduction .maximumf [1] ⟨1, ![5000]⟩ P acc h hφ hacc) hc) hb))
      (broadcastTo ⟨2, ![5000, e]⟩
        (log (shapeCast ⟨2, ![5000, 1]⟩
          (multiReduction .add [1] ⟨1, ![5000]⟩
            (exp (subf P (broadcastTo ⟨2, ![5000, e]⟩ (shapeCast ⟨2, ![5000, 1]⟩ (multiReduction .maximumf [1] ⟨1, ![5000]⟩ P acc h hφ hacc) hc) hb)))
            0x00000000#32 h hφ' hacc') hc)) hb) (ix2 p q)
      = Sage.logsm (Ideal.ofBits .f32 acc) 0 (fun r j => P (ix2 r j)) p q :=
  logsoft_core P _ _ h hφ' hacc' hc hb p q (fun d => rowmax_col_at P acc h hφ hacc hc hb p d)

end Cert.KPay

end
-- ==== Proof.KRegion0.lean ====
/-
  The first pallas_call's output array after its twenty grid points, at whatever contents `V` the call is entered with.

  Grid point `t` loads rows `5000·t … 5000·t + 4999` of the neighbour sums, of the features and of the scale column, and
  the two weight matrices and the bias row whole; its body leaves in the output's staging buffer the rectified layer of
  those blocks, which is written back to the same rows of the output array. So what point `t` writes back is block `t`
  of ONE whole-array function — `hidden` of the six arrays as the call finds them —, and since the twenty blocks cover all
  100000 rows the output array ends holding that function.
-/
import proofs.«172431_j71287867179094_2_alg».proof.Proof.Gen.KernelIdeal.Frame
import proofs.«172431_j71287867179094_2_alg».proof.Proof.KPay
import Idealize.ShloMosaic.Lib.Pipeline.Value

set_option maxRecDepth 16384

noncomputable section

namespace Cert.KRegion

open Cert.KernelIdeal Cert.KernelIdeal.Gen Idealize.ShloMosaic Idealize.ShloMosaic.TcCoe Idealize.SL.Sem
open Idealize.ShloMosaic.ValueIdx
open Idealize.ShloMosaic.Pipeline (Dat)

/-- The hidden features of every node, from the six arrays the first pallas_call reads: the rectified layer, entry by entry. -/
def hidden (A X : FVec Ideal S100000x128 .f32) (I : FVec Ideal S100000x1 .f32) (Wl Wr : FVec Ideal S128x128 .bf16)
    (B : FVec Ideal S1x128 .f32) : FVec Ideal S100000x128 .f32 :=
  fun i => max (Sage.layer A X I Wl Wr B (i 0) (i 1)) (Ideal.ofBits .f32 0x00000000#32)

theorem hz : (![0, 0] : Fin 2 → Nat) = fun _ => 0 := funext fun a => by fin_cases a <;> rfl

/-- The body's stored value at an entry `y` of the block is `hidden` at an entry `i` of the arrays, whenever the loaded
    blocks read, along `y`'s row and column, what the arrays read along `i`'s. -/
theorem block_hidden (A X : FVec Ideal S100000x128 .f32) (I : FVec Ideal S100000x1 .f32) (Wl Wr : FVec Ideal S128x128 .bf16)
    (B : FVec Ideal S1x128 .f32)
    (x0 x1 : FVec Ideal S5000x128 .f32) (x2 : FVec Ideal S5000x1 .f32) (x3 x4 : FVec Ideal S128x128 .bf16) (x5 : FVec Ideal S1x128 .f32)
    (p : Fin 5000) (q : Fin 128) (i : S100000x128.Idx)
    (h0 : ∀ k : Fin 128, x0 (ix2 p k) = A (ix2 (i 0) k)) (h1 : ∀ k : Fin 128, x1 (ix2 p k) = X (ix2 (i 0) k))
    (h2 : x2 (ix2 p (0 : Fin 1)) = I (ix2 (i 0) (0 : Fin 1)))
    (h3 : ∀ k : Fin 128, x3 (ix2 k q) = Wl (ix2 k (i 1))) (h4 : ∀ k : Fin 128, x4 (ix2 k q) = Wr (ix2 k (i 1)))
    (h5 : x5 (ix2 (0 : Fin 1) q) = B (ix2 (0 : Fin 1) (i 1))) :
    k0_pay1 (F := Ideal) x0 x2 x1 x3 x4 x5 (ix2 p q) = hidden A X I Wl Wr B i := by
  unfold hidden
  show max (addf (addf
        (matmul dot_S5000x128_S128x128_S5000x128_1_0_0_1_n_n none
          (truncf .bf16 (mulf (shapeCast S5000x128 x0 shapeCasts_S5000x128_S5000x128)
            (broadcastTo S5000x128 (shapeCast S5000x1 x2 shapeCasts_S5000x1_S5000x1) broadcasts_S5000x1_S5000x128)) bitsLt_bf16_f32)
          (shapeCast S128x128 x3 shapeCasts_S128x128_S128x128) (constant S5000x128 .f32 0x00000000#32))
        (matmul dot_S5000x128_S128x128_S5000x128_1_0_0_1_n_n none (truncf .bf16 x1 bitsLt_bf16_f32)
          (shapeCast S128x128 x4 shapeCasts_S128x128_S128x128) (constant S5000x128 .f32 0x00000000#32)))
      (broadcastTo S5000x128 (shapeCast S1x128 x5 shapeCasts_S1x128_S1x128) broadcasts_S1x128_S5000x128) (ix2 p q))
      (Ideal.ofBits .f32 0x00000000#32) = _
  refine congrArg (fun v => max v (Ideal.ofBits .f32 0x00000000#32)) ?_
  refine (Cert.KPay.layer_at (e := 128) x0 x1 (truncf .bf16 x1 bitsLt_bf16_f32) x2 x3 x4 x5 _ _ _ _ _ _ _ p q (fun _ => rfl)).trans ?_
  exact Sage.layer_congr h0 h1 h2 h3 h4 h5

/-- The printed index maps, decided over the twenty points: the three row-blocked inputs and the output sit at block row
    `t`, column block 0; the weights and the bias at block (0, 0). -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 19 :=
  (by decide +kernel : ∀ t : Fin grid0.N, _)

/-- Every block row is some point's. -/
theorem idx_onto0 : ∀ q0 : Fin 20, ∃ t : Fin cfg0.N, win0_6.index t = ![q0.val, 0] :=
  (by decide +kernel : ∀ q0 : Fin 20, ∃ t : Fin grid0.N, win0_6.index t = ![q0.val, 0])

variable (V : (c : Dev nD) → (b : Ref sig .tc) → Buf (Elt Ideal) ((c : Thread nD τ).loc b))

/-- WHAT POINT `t` WRITES BACK is block `t` of `hidden` of the arrays as the call finds them. -/
theorem flushed_hidden (c : Dev nD) (t : Fin cfg0.N) :
    (dat0 V c).flushed 6 t = ((cfg0.win 6).blk t).view.read (Elt Ideal)
      (hidden (V c main_v22) (V c main_arg0) (V c main_v12) (V c main_v24) (V c main_v26) (V c main_v27)) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x128) hz,
    View.ld_unit_zero (S := S1x128) hz]
  obtain ⟨e00, e01, e10, e11, e20, e21, e30, e31, e40, e41, e50, e51, e61, e6b⟩ := idx_facts0 t
  funext j
  obtain ⟨p, q, rfl⟩ : ∃ (p : Fin 5000) (q : Fin 128), j = ix2 p q := ⟨j 0, j 1, eq_ix2 j⟩
  show k0_pay1 (F := Ideal) (iblk0 V c 0 t) (iblk0 V c 2 t) (iblk0 V c 1 t) (iblk0 V c 3 t) (iblk0 V c 4 t) (iblk0 V c 5 t) (ix2 p q)
    = hidden (V c main_v22) (V c main_arg0) (V c main_v12) (V c main_v24) (V c main_v26) (V c main_v27)
        (((cfg0.win 6).blk t).view.emb (ix2 p q))
  refine block_hidden _ _ _ _ _ _ _ _ _ _ _ _ p q _ (fun k => ?_) (fun k => ?_) ?_ (fun k => ?_) (fun k => ?_) ?_
  · show V c main_v22 (((cfg0.win 0).blk t).view.emb (ix2 p k)) = V c main_v22 (ix2 ((((cfg0.win 6).blk t).view.emb (ix2 p q)) 0) k)
    refine congrArg (V c main_v22) (funext fun a => Fin.ext ?_)
    match a with
    | ⟨0, _⟩ => show win0_0.index t (0 : Fin 2) * 5000 + 1 * p.val = win0_6.index t (0 : Fin 2) * 5000 + 1 * p.val; omega
    | ⟨1, _⟩ => show win0_0.index t (1 : Fin 2) * 128 + 1 * k.val = k.val; omega
  · show V c main_arg0 (((cfg0.win 1).blk t).view.emb (ix2 p k)) = V c main_arg0 (ix2 ((((cfg0.win 6).blk t).view.emb (ix2 p q)) 0) k)
    refine congrArg (V c main_arg0) (funext fun a => Fin.ext ?_)
    match a with
    | ⟨0, _⟩ => show win0_1.index t (0 : Fin 2) * 5000 + 1 * p.val = win0_6.index t (0 : Fin 2) * 5000 + 1 * p.val; omega
    | ⟨1, _⟩ => show win0_1.index t (1 : Fin 2) * 128 + 1 * k.val = k.val; omega
  · show V c main_v12 (((cfg0.win 2).blk t).view.emb (ix2 p (0 : Fin 1))) = V c main_v12 (ix2 ((((cfg0.win 6).blk t).view.emb (ix2 p q)) 0) (0 : Fin 1))
    refine congrArg (V c main_v12) (funext fun a => Fin.ext ?_)
    match a with
    | ⟨0, _⟩ => show win0_2.index t (0 : Fin 2) * 5000 + 1 * p.val = win0_6.index t (0 : Fin 2) * 5000 + 1 * p.val; omega
    | ⟨1, _⟩ => show win0_2.index t (1 : Fin 2) * 1 + 1 * 0 = 0; omega
  · show V c main_v24 (((cfg0.win 3).blk t).view.emb (ix2 k q)) = V c main_v24 (ix2 k ((((cfg0.win 6).blk t).view.emb (ix2 p q)) 1))
    refine congrArg (V c main_v24) (funext fun a => Fin.ext ?_)
    match a with
    | ⟨0, _⟩ => show win0_3.index t (0 : Fin 2) * 128 + 1 * k.val = k.val; omega
    | ⟨1, _⟩ => show win0_3.index t (1 : Fin 2) * 128 + 1 * q.val = win0_6.index t (1 : Fin 2) * 128 + 1 * q.val; omega
  · show V c main_v26 (((cfg0.win 4).blk t).view.emb (ix2 k q)) = V c main_v26 (ix2 k ((((cfg0.win 6).blk t).view.emb (ix2 p q)) 1))
    refine congrArg (V c main_v26) (funext fun a => Fin.ext ?_)
    match a with
    | ⟨0, _⟩ => show win0_4.index t (0 : Fin 2) * 128 + 1 * k.val = k.val; omega
    | ⟨1, _⟩ => show win0_4.index t (1 : Fin 2) * 128 + 1 * q.val = win0_6.index t (1 : Fin 2) * 128 + 1 * q.val; omega
  · show V c main_v27 (((cfg0.win 5).blk t).view.emb (ix2 (0 : Fin 1) q)) = V c main_v27 (ix2 (0 : Fin 1) ((((cfg0.win 6).blk t).view.emb (ix2 p q)) 1))
    refine congrArg (V c main_v27) (funext fun a => Fin.ext ?_)
    match a with
    | ⟨0, _⟩ => show win0_5.index t (0 : Fin 2) * 1 + 1 * 0 = 0; omega
    | ⟨1, _⟩ => show win0_5.index t (1 : Fin 2) * 128 + 1 * q.val = win0_6.index t (1 : Fin 2) * 128 + 1 * q.val; omega

/-- An index of the output array is in point `t`'s block iff each coordinate is in the block's range on its axis. -/
theorem mem_blk0 (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v28).slice (win0_6.rect t)).set ↔ _
  rw [View.set_slice_whole, Rect.mem_set_unit]
  exact Iff.rfl

/-- The twenty blocks cover the output array: row `r` is in the block of point `r / 5000`. -/
theorem cover0 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto0 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE FIRST CALL'S OUTPUT ARRAY after its grid: `hidden` of the six arrays as the call finds them. -/
theorem final_hidden (c : Dev nD) : (dat0 V c).arrAt 6 cfg0.N
    = hidden (V c main_v22) (V c main_arg0) (V c main_v12) (V c main_v24) (V c main_v26) (V c main_v27) :=
  (dat0 V c).arrAt_eq_of_cover 6 _ (fun t _ => flushed_hidden V c t) cover0

end Cert.KRegion

end
-- ==== Proof.KRegion1.lean ====
/-
  The second pallas_call's two output arrays after its twenty grid points, at whatever contents `V` the call is
  entered with. As in the first call, point `t` works on rows `5000·t … 5000·t + 4999`: it writes the layer's value of
  those rows to the first output and the log-softmax of each of those rows to the second. A row's log-softmax needs
  that row only, and a block holds whole rows, so both outputs are blocks of whole-array functions — `output` of the six
  arrays as the call finds them, and `logsoft` of that — and the twenty blocks cover all 100000 rows.
-/
import proofs.«172431_j71287867179094_2_alg».proof.Proof.Gen.KernelIdeal.Frame
import proofs.«172431_j71287867179094_2_alg».proof.Proof.KPay2
import proofs.«172431_j71287867179094_2_alg».proof.Proof.KRegion0
import Idealize.ShloMosaic.Lib.Pipeline.Value

set_option maxRecDepth 16384

noncomputable section

namespace Cert.KRegion

open Cert.KernelIdeal Cert.KernelIdeal.Gen Idealize.ShloMosaic Idealize.ShloMosaic.TcCoe Idealize.SL.Sem
open Idealize.ShloMosaic.ValueIdx
open Idealize.ShloMosaic.Pipeline (Dat)

/-- The second layer's value at every node and output column, from the six arrays the second pallas_call reads. -/
def output (A H : FVec Ideal S100000x128 .f32) (I : FVec Ideal S100000x1 .f32) (Wl Wr : FVec Ideal S128x40 .bf16)
    (B : FVec Ideal S1x40 .f32) : FVec Ideal S100000x40 .f32 :=
  fun i => Sage.layer A H I Wl Wr B (i 0) (i 1)

/-- The row log-softmax of an `[100000, 40]` array, entry by entry. -/
def logsoft (O : FVec Ideal S100000x40 .f32) : FVec Ideal S100000x40 .f32 :=
  fun i => Sage.logsm (Ideal.ofBits .f32 0xFF800000#32) 0 (fun r j => O (ix2 r j)) (i 0) (i 1)

/-- The first store's value at an entry `(p, q)` of the block is `output` at an entry `i` of the arrays, whenever the loaded
    blocks read, along that row and column, what the arrays read along `i`'s. -/
theorem block_output (A H : FVec Ideal S100000x128 .f32) (I : FVec Ideal S100000x1 .f32) (Wl Wr : FVec Ideal S128x40 .bf16)
    (B : FVec Ideal S1x40 .f32)
    (x0 x1 : FVec Ideal S5000x128 .f32) (x2 : FVec Ideal S5000x1 .f32) (x3 x4 : FVec Ideal S128x40 .bf16) (x5 : FVec Ideal S1x40 .f32)
    (p : Fin 5000) (q : Fin 40) (i : S100000x40.Idx)
    (h0 : ∀ k : Fin 128, x0 (ix2 p k) = A (ix2 (i 0) k)) (h1 : ∀ k : Fin 128, x1 (ix2 p k) = H (ix2 (i 0) k))
    (h2 : x2 (ix2 p (0 : Fin 1)) = I (ix2 (i 0) (0 : Fin 1)))
    (h3 : ∀ k : Fin 128, x3 (ix2 k q) = Wl (ix2 k (i 1))) (h4 : ∀ k : Fin 128, x4 (ix2 k q) = Wr (ix2 k (i 1)))
    (h5 : x5 (ix2 (0 : Fin 1) q) = B (ix2 (0 : Fin 1) (i 1))) :
    k1_pay1 (F := Ideal) x0 x2 x1 x3 x4 x5 (ix2 p q) = output A H I Wl Wr B i := by
  unfold output
  refine (Cert.KPay.layer_at (e := 40) x0 x1 (truncf .bf16 (shapeCast S5000x128 x1 shapeCasts_S5000x128_S5000x128) bitsLt_bf16_f32)
    x2 x3 x4 x5 _ _ _ _ _ _ _ p q (fun k => ?_)).trans ?_
  · show (shapeCast S5000x128 x1 shapeCasts_S5000x128_S5000x128) (ix2 p k) = _
    rw [shapeCast_self]
  · exact Sage.layer_congr h0 h1 h2 h3 h4 h5

/-- The second store's value at `(p, q)` is the log-softmax of row `p` of the first store's block. -/
theorem block_logsoft (x0 x1 : FVec Ideal S5000x128 .f32) (x2 : FVec Ideal S5000x1 .f32) (x3 x4 : FVec Ideal S128x40 .bf16)
    (x5 : FVec Ideal S1x40 .f32) (p : Fin 5000) (q : Fin 40) :
    k1_pay2 (F := Ideal) x0 x2 x1 x3 x4 x5 (ix2 p q)
      = Sage.logsm (Ideal.ofBits .f32 0xFF800000#32) 0 (fun r j => k1_pay1 (F := Ideal) x0 x2 x1 x3 x4 x5 (ix2 r j)) p q :=
  Cert.KPay.logsoft_at (e := 40) (k1_pay1 (F := Ideal) x0 x2 x1 x3 x4 x5) 0xFF800000#32 _ _ _ _ _ _ _ p q

/-- The printed index maps of the second call, decided over the twenty points. -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 19
    ∧ win1_7.index t (0 : Fin 2) = win1_6.index t (0 : Fin 2) ∧ win1_7.index t (1 : Fin 2) = 0 :=
  (by decide +kernel : ∀ t : Fin grid1.N, _)

theorem idx_onto1_6 : ∀ q0 : Fin 20, ∃ t : Fin cfg1.N, win1_6.index t = ![q0.val, 0] :=
  (by decide +kernel : ∀ q0 : Fin 20, ∃ t : Fin grid1.N, win1_6.index t = ![q0.val, 0])
theorem idx_onto1_7 : ∀ q0 : Fin 20, ∃ t : Fin cfg1.N, win1_7.index t = ![q0.val, 0] :=
  (by decide +kernel : ∀ q0 : Fin 20, ∃ t : Fin grid1.N, win1_7.index t = ![q0.val, 0])

variable (V : (c : Dev nD) → (b : Ref sig .tc) → Buf (Elt Ideal) ((c : Thread nD τ).loc b))

/-- The first store's block entry `(p, d)` at point `t` is `output` of the arrays at row `5000·t + p` — the row of the
    output block's entry `(p, q)`, whatever `q` — and column `d`. -/
theorem out_entry (c : Dev nD) (t : Fin cfg1.N) (p : Fin 5000) (q d : Fin 40) :
    k1_pay1 (F := Ideal) (iblk1 V c 0 t) (iblk1 V c 2 t) (iblk1 V c 1 t) (iblk1 V c 3 t) (iblk1 V c 4 t) (iblk1 V c 5 t) (ix2 p d)
      = output (V c main_v38) (V c main_v28) (V c main_v12) (V c main_v40) (V c main_v42) (V c main_v43)
          (ix2 ((((cfg1.win 6).blk t).view.emb (ix2 p q)) 0) d) := by
  obtain ⟨e00, e01, e10, e11, e20, e21, e30, e31, e40, e41, e50, e51, e61, e6b, e70, e71⟩ := idx_facts1 t
  refine block_output _ _ _ _ _ _ _ _ _ _ _ _ p d _ (fun k => ?_) (fun k => ?_) ?_ (fun k => ?_) (fun k => ?_) ?_
  · show V c main_v38 (((cfg1.win 0).blk t).view.emb (ix2 p k)) = V c main_v38 (ix2 ((((cfg1.win 6).blk t).view.emb (ix2 p q)) 0) k)
    refine congrArg (V c main_v38) (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * k.val = k.val; omega
  · show V c main_v28 (((cfg1.win 1).blk t).view.emb (ix2 p k)) = V c main_v28 (ix2 ((((cfg1.win 6).blk t).view.emb (ix2 p q)) 0) k)
    refine congrArg (V c main_v28) (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 128 + 1 * k.val = k.val; omega
  · show V c main_v12 (((cfg1.win 2).blk t).view.emb (ix2 p (0 : Fin 1))) = V c main_v12 (ix2 ((((cfg1.win 6).blk t).view.emb (ix2 p q)) 0) (0 : Fin 1))
    refine congrArg (V c main_v12) (funext fun a => Fin.ext ?_)
    match a with
    | ⟨0, _⟩ => show win1_2.index t (0 : Fin 2) * 5000 + 1 * p.val = win1_6.index t (0 : Fin 2) * 5000 + 1 * p.val; omega
    | ⟨1, _⟩ => show win1_2.index t (1 : Fin 2) * 1 + 1 * 0 = 0; omega
  · show V c main_v40 (((cfg1.win 3).blk t).view.emb (ix2 k d)) = V c main_v40 (ix2 k d)
    refine congrArg (V c main_v40) (funext fun a => Fin.ext ?_)
    match a with
    | ⟨0, _⟩ => show win1_3.index t (0 : Fin 2) * 128 + 1 * k.val = k.val; omega
    | ⟨1, _⟩ => show win1_3.index t (1 : Fin 2) * 40 + 1 * d.val = d.val; omega
  · show V c main_v42 (((cfg1.win 4).blk t).view.emb (ix2 k d)) = V c main_v42 (ix2 k d)
    refine congrArg (V c main_v42) (funext fun a => Fin.ext ?_)
    match a with
    | ⟨0, _⟩ => show win1_4.index t (0 : Fin 2) * 128 + 1 * k.val = k.val; omega
    | ⟨1, _⟩ => show win1_4.index t (1 : Fin 2) * 40 + 1 * d.val = d.val; omega
  · show V c main_v43 (((cfg1.win 5).blk t).view.emb (ix2 (0 : Fin 1) d)) = V c main_v43 (ix2 (0 : Fin 1) d)
    refine congrArg (V c main_v43) (funext fun a => Fin.ext ?_)
    match a with
    | ⟨0, _⟩ => show win1_5.index t (0 : Fin 2) * 1 + 1 * 0 = 0; omega
    | ⟨1, _⟩ => show win1_5.index t (1 : Fin 2) * 40 + 1 * d.val = d.val; omega

/-- The array index of the first output's block entry `(p, q)` has column `q`. -/
theorem emb6_col (t : Fin cfg1.N) (p : Fin 5000) (q : Fin 40) :
    ix2 ((((cfg1.win 6).blk t).view.emb (ix2 p q)) 0) q = (((cfg1.win 6).blk t).view.emb (ix2 p q)) := by
  obtain ⟨e00, e01, e10, e11, e20, e21, e30, e31, e40, e41, e50, e51, e61, e6b, e70, e71⟩ := idx_facts1 t
  funext a
  refine Fin.ext ?_
  match a with
  | ⟨0, _⟩ => rfl
  | ⟨1, _⟩ => show q.val = win1_6.index t (1 : Fin 2) * 40 + 1 * q.val; omega

/-- The second output's block at a point sits on the same rows as the first's. -/
theorem emb7_eq (t : Fin cfg1.N) (p : Fin 5000) (q : Fin 40) :
    (((cfg1.win 7).blk t).view.emb (ix2 p q)) = (((cfg1.win 6).blk t).view.emb (ix2 p q)) := by
  obtain ⟨e00, e01, e10, e11, e20, e21, e30, e31, e40, e41, e50, e51, e61, e6b, e70, e71⟩ := idx_facts1 t
  funext a
  refine Fin.ext ?_
  match a with
  | ⟨0, _⟩ => show win1_7.index t (0 : Fin 2) * 5000 + 1 * p.val = win1_6.index t (0 : Fin 2) * 5000 + 1 * p.val; omega
  | ⟨1, _⟩ => show win1_7.index t (1 : Fin 2) * 40 + 1 * q.val = win1_6.index t (1 : Fin 2) * 40 + 1 * q.val; omega

theorem hz' : (![0, 0] : Fin 2 → Nat) = fun _ => 0 := hz

/-- WHAT POINT `t` WRITES BACK to the first output is block `t` of `output` of the arrays as the call finds them. -/
theorem flushed_output (c : Dev nD) (t : Fin cfg1.N) :
    (dat1 V c).flushed 6 t = ((cfg1.win 6).blk t).view.read (Elt Ideal)
      (output (V c main_v38) (V c main_v28) (V c main_v12) (V c main_v40) (V c main_v42) (V c main_v43)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x40) hz,
    View.ld_unit_zero (S := S1x40) hz]
  funext j
  obtain ⟨p, q, rfl⟩ : ∃ (p : Fin 5000) (q : Fin 40), j = ix2 p q := ⟨j 0, j 1, eq_ix2 j⟩
  show k1_pay1 (F := Ideal) (iblk1 V c 0 t) (iblk1 V c 2 t) (iblk1 V c 1 t) (iblk1 V c 3 t) (iblk1 V c 4 t) (iblk1 V c 5 t) (ix2 p q)
    = output (V c main_v38) (V c main_v28) (V c main_v12) (V c main_v40) (V c main_v42) (V c main_v43) (((cfg1.win 6).blk t).view.emb (ix2 p q))
  exact (out_entry V c t p q q).trans
    (congrArg (output (V c main_v38) (V c main_v28) (V c main_v12) (V c main_v40) (V c main_v42) (V c main_v43)) (emb6_col t p q))

/-- WHAT POINT `t` WRITES BACK to the second output is block `t` of the row log-softmax of `output`. -/
theorem flushed_logsoft (c : Dev nD) (t : Fin cfg1.N) :
    (dat1 V c).flushed 7 t = ((cfg1.win 7).blk t).view.read (Elt Ideal)
      (logsoft (output (V c main_v38) (V c main_v28) (V c main_v12) (V c main_v40) (V c main_v42) (V c main_v43))) := by
  show (cfg1.win 7).cut (grid1.coords t) ((dat1 V c).after 7 t) = _
  rw [after1_7]
  unfold out1_7
  rw [View.canon_unit_zero hz]
  simp only [View.ld_unit_zero (S := S5000x128) hz, View.ld_unit_zero (S := S5000x1) hz, View.ld_unit_zero (S := S128x40) hz,
    View.ld_unit_zero (S := S1x40) hz]
  funext j
  obtain ⟨p, q, rfl⟩ : ∃ (p : Fin 5000) (q : Fin 40), j = ix2 p q := ⟨j 0, j 1, eq_ix2 j⟩
  show k1_pay2 (F := Ideal) (iblk1 V c 0 t) (iblk1 V c 2 t) (iblk1 V c 1 t) (iblk1 V c 3 t) (iblk1 V c 4 t) (iblk1 V c 5 t) (ix2 p q)
    = logsoft (output (V c main_v38) (V c main_v28) (V c main_v12) (V c main_v40) (V c main_v42) (V c main_v43)) (((cfg1.win 7).blk t).view.emb (ix2 p q))
  rw [emb7_eq t p q, block_logsoft]
  unfold logsoft
  refine Sage.logsm_congr _ _ (fun d => out_entry V c t p q d) ?_
  exact Fin.ext (congrArg Fin.val (congrFun (emb6_col t p q) 1))

/-- An index of either output array is in point `t`'s block iff each coordinate is in the block's range on its axis. -/
theorem mem_blk1_6 (t : Fin cfg1.N) (i : S100000x40.Idx) :
    i ∈ ((cfg1.win 6).blk t).view.set ↔ ∀ a : Fin 2, win1_6.index t a * S5000x40.size a ≤ (i a).val
      ∧ (i a).val < win1_6.index t a * S5000x40.size a + S5000x40.size a := by
  show i ∈ ((View.whole main_v44_0).slice (win1_6.rect t)).set ↔ _
  rw [View.set_slice_whole, Rect.mem_set_unit]
  exact Iff.rfl
theorem mem_blk1_7 (t : Fin cfg1.N) (i : S100000x40.Idx) :
    i ∈ ((cfg1.win 7).blk t).view.set ↔ ∀ a : Fin 2, win1_7.index t a * S5000x40.size a ≤ (i a).val
      ∧ (i a).val < win1_7.index t a * S5000x40.size a + S5000x40.size a := by
  show i ∈ ((View.whole main_v44_1).slice (win1_7.rect t)).set ↔ _
  rw [View.set_slice_whole, Rect.mem_set_unit]
  exact Iff.rfl

/-- The twenty blocks cover each output array: row `r` is in the block of point `r / 5000`. -/
theorem cover1_6' (i : S100000x40.Idx) : ∃ t : Fin cfg1.N, (cfg1.win 6).flush t = true ∧ i ∈ ((cfg1.win 6).blk t).view.set := by
  have hi0 : (i 0).val < 100000 := (i 0).isLt
  have hi1 : (i 1).val < 40 := (i 1).isLt
  obtain ⟨t, ht⟩ := idx_onto1_6 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk1_6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 40 ≤ (i 1).val ∧ (i 1).val < win1_6.index t (1 : Fin 2) * 40 + 40; omega
theorem cover1_7' (i : S100000x40.Idx) : ∃ t : Fin cfg1.N, (cfg1.win 7).flush t = true ∧ i ∈ ((cfg1.win 7).blk t).view.set := by
  have hi0 : (i 0).val < 100000 := (i 0).isLt
  have hi1 : (i 1).val < 40 := (i 1).isLt
  obtain ⟨t, ht⟩ := idx_onto1_7 ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_blk1_7]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 40 ≤ (i 1).val ∧ (i 1).val < win1_7.index t (1 : Fin 2) * 40 + 40; omega

/-- THE SECOND CALL'S OUTPUT ARRAYS after its grid. -/
theorem final_output (c : Dev nD) : (dat1 V c).arrAt 6 cfg1.N
    = output (V c main_v38) (V c main_v28) (V c main_v12) (V c main_v40) (V c main_v42) (V c main_v43) :=
  (dat1 V c).arrAt_eq_of_cover 6 _ (fun t _ => flushed_output V c t) cover1_6'
theorem final_logsoft (c : Dev nD) : (dat1 V c).arrAt 7 cfg1.N
    = logsoft (output (V c main_v38) (V c main_v28) (V c main_v12) (V c main_v40) (V c main_v42) (V c main_v43)) :=
  (dat1 V c).arrAt_eq_of_cover 7 _ (fun t _ => flushed_logsoft V c t) cover1_7'

end Cert.KRegion

end
-- ==== Proof.KHost.lean ====
/-
  The kernel program's two results as functions of the arguments.

  Before the first pallas_call the host computes, from the edge list, the neighbour sums of the features and the stored
  scale column `1 / max (count) 1`, transposes the two weight matrices (a change of float format after it is the identity
  here) and makes the bias a row. The first call then leaves the hidden features (`KRegion.hidden` of those). Between the
  calls the host computes the neighbour sums of the hidden features with the same two index rows, and transposes the
  second layer's weights; the scale column is reused. The second call leaves the second layer's value and its row
  log-softmax (`KRegion.output`, `KRegion.logsoft`). The host's gather, scatter-add and count are the reference's own
  terms (`RefSpec.aggOf`, `RefSpec.cmaxOf`), so they are carried whole and never opened.
-/
import proofs.«172431_j71287867179094_2_alg».proof.Proof.KRun
import proofs.«172431_j71287867179094_2_alg».proof.Proof.KRegion1
import proofs.«172431_j71287867179094_2_alg».proof.Proof.RefSpec

set_option maxRecDepth 16384

noncomputable section

namespace Cert.KHost

open Cert.KernelIdeal Cert.KernelIdeal.Gen Idealize.ShloMosaic Idealize.ShloMosaic.TcCoe Idealize.SL.Sem
open Idealize.ShloMosaic.StableHlo

/-- An index array of 32-bit integers of shape `s`. -/
abbrev IArr (s : Shape) : Type := (⟨s, .i32⟩ : BufTy).Contents (Elt Ideal)

/-- The stored scale column: one over the neighbour count floored at one, per node. -/
def invCol (d : IArr S1600000) : FVec Ideal S100000x1 .f32 :=
  broadcastInDim S100000x1 ![0] bcast_S100000_S100000x1_0
    (Host.divf (broadcastInDim S100000 ![] bcast_S_S100000 (constant S_ .f32 0x3F800000#32)) (Cert.RefSpec.cmaxOf d))

/-- A `[128, 128]` weight matrix transposed (and its format changed, the identity here). -/
def wT128 (W : FVec Ideal S128x128 .f32) : FVec Ideal S128x128 .bf16 :=
  truncf .bf16 (transpose S128x128 [1, 0] W transposes_S128x128_S128x128_1_0) bitsLt_bf16_f32

/-- A `[40, 128]` weight matrix transposed to `[128, 40]`. -/
def wT40 (W : FVec Ideal S40x128 .f32) : FVec Ideal S128x40 .bf16 :=
  truncf .bf16 (transpose S128x40 [1, 0] W transposes_S40x128_S128x40_1_0) bitsLt_bf16_f32

/-- A bias vector as a one-row matrix. -/
def bRow128 (b : FVec Ideal S128 .f32) : FVec Ideal S1x128 .f32 := shapeCast _ b shapeCasts_S128_S1x128
def bRow40 (b : FVec Ideal S40 .f32) : FVec Ideal S1x40 .f32 := shapeCast _ b shapeCasts_S40_S1x40

/-- The hidden features of the arguments, as the kernel computes them. -/
def hidK (x0 : FVec Ideal S100000x128 .f32) (x1 : IArr S2x1600000) (x2 : FVec Ideal S128x128 .f32) (x3 : FVec Ideal S128 .f32)
    (x4 : FVec Ideal S128x128 .f32) : FVec Ideal S100000x128 .f32 :=
  KRegion.hidden (Cert.RefSpec.aggOf (Cert.RefSpec.srcRow x1) (Cert.RefSpec.dstRow x1) x0) x0 (invCol (Cert.RefSpec.dstRow x1)) (wT128 x2) (wT128 x4) (bRow128 x3)

/-- The kernel's first result: the second layer of the hidden features. -/
def outK (x0 : FVec Ideal S100000x128 .f32) (x1 : IArr S2x1600000) (x2 : FVec Ideal S128x128 .f32) (x3 : FVec Ideal S128 .f32)
    (x4 : FVec Ideal S128x128 .f32) (x5 : FVec Ideal S40x128 .f32) (x6 : FVec Ideal S40 .f32) (x7 : FVec Ideal S40x128 .f32) :
    FVec Ideal S100000x40 .f32 :=
  KRegion.output (Cert.RefSpec.aggOf (Cert.RefSpec.srcRow x1) (Cert.RefSpec.dstRow x1) (hidK x0 x1 x2 x3 x4)) (hidK x0 x1 x2 x3 x4) (invCol (Cert.RefSpec.dstRow x1))
    (wT40 x5) (wT40 x7) (bRow40 x6)

variable (m : (ℓ : Loc nD τ sig) → Buf (Elt Ideal) ℓ) (ρ : Dev nD → PrngReg)

/-! ## What the first pallas_call finds (the host operations before it, over the launch memory) -/

theorem V1_v22 (c : Dev nD) : V1 m ρ c main_v22
    = Cert.RefSpec.aggOf (Cert.RefSpec.srcRow (m ((c : Thread nD τ).loc main_arg1))) (Cert.RefSpec.dstRow (m ((c : Thread nD τ).loc main_arg1))) (m ((c : Thread nD τ).loc main_arg0)) := by
  show StableHlo.after hostOps0 (W0 m ρ c) (Proc.devRef .tc main_v22) = _
  after_results_simp <;> rfl
theorem V1_arg0 (c : Dev nD) : V1 m ρ c main_arg0 = m ((c : Thread nD τ).loc main_arg0) := by
  show StableHlo.after hostOps0 (W0 m ρ c) (Proc.devRef .tc main_arg0) = _
  after_results_simp <;> rfl
theorem V1_v12 (c : Dev nD) : V1 m ρ c main_v12 = invCol (Cert.RefSpec.dstRow (m ((c : Thread nD τ).loc main_arg1))) := by
  show StableHlo.after hostOps0 (W0 m ρ c) (Proc.devRef .tc main_v12) = _
  after_results_simp <;> rfl
theorem V1_v24 (c : Dev nD) : V1 m ρ c main_v24 = wT128 (m ((c : Thread nD τ).loc main_arg2)) := by
  show StableHlo.after hostOps0 (W0 m ρ c) (Proc.devRef .tc main_v24) = _
  after_results_simp <;> rfl
theorem V1_v26 (c : Dev nD) : V1 m ρ c main_v26 = wT128 (m ((c : Thread nD τ).loc main_arg4)) := by
  show StableHlo.after hostOps0 (W0 m ρ c) (Proc.devRef .tc main_v26) = _
  after_results_simp <;> rfl
theorem V1_v27 (c : Dev nD) : V1 m ρ c main_v27 = bRow128 (m ((c : Thread nD τ).loc main_arg3)) := by
  show StableHlo.after hostOps0 (W0 m ρ c) (Proc.devRef .tc main_v27) = _
  after_results_simp <;> rfl
theorem V1_v1 (c : Dev nD) : V1 m ρ c main_v1 = Cert.RefSpec.srcRow (m ((c : Thread nD τ).loc main_arg1)) := by
  show StableHlo.after hostOps0 (W0 m ρ c) (Proc.devRef .tc main_v1) = _
  after_results_simp <;> rfl
theorem V1_v3 (c : Dev nD) : V1 m ρ c main_v3 = Cert.RefSpec.dstRow (m ((c : Thread nD τ).loc main_arg1)) := by
  show StableHlo.after hostOps0 (W0 m ρ c) (Proc.devRef .tc main_v3) = _
  after_results_simp <;> rfl
theorem V1_arg5 (c : Dev nD) : V1 m ρ c main_arg5 = m ((c : Thread nD τ).loc main_arg5) := by
  show StableHlo.after hostOps0 (W0 m ρ c) (Proc.devRef .tc main_arg5) = _
  after_results_simp <;> rfl
theorem V1_arg6 (c : Dev nD) : V1 m ρ c main_arg6 = m ((c : Thread nD τ).loc main_arg6) := by
  show StableHlo.after hostOps0 (W0 m ρ c) (Proc.devRef .tc main_arg6) = _
  after_results_simp <;> rfl
theorem V1_arg7 (c : Dev nD) : V1 m ρ c main_arg7 = m ((c : Thread nD τ).loc main_arg7) := by
  show StableHlo.after hostOps0 (W0 m ρ c) (Proc.devRef .tc main_arg7) = _
  after_results_simp <;> rfl

/-- THE FIRST CALL'S OUTPUT: the hidden features of the arguments. -/
theorem W2_v28 (c : Dev nD) : W2 m ρ c (Proc.devRef .tc main_v28)
    = hidK (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 6).trans ((KRegion.final_hidden (V1 m ρ) c).trans ?_)
  rw [V1_v22, V1_arg0, V1_v12, V1_v24, V1_v26, V1_v27]
  rfl

/-! ## What the second pallas_call finds: the first call's output, what the first call did not touch, and the host
    operations between the calls -/

theorem W2_v1 (c : Dev nD) : W2 m ρ c (Proc.devRef .tc main_v1) = Cert.RefSpec.srcRow (m ((c : Thread nD τ).loc main_arg1)) :=
  (W2_of_ne m ρ c main_v1 (by decide)).trans (V1_v1 m ρ c)
theorem W2_v3 (c : Dev nD) : W2 m ρ c (Proc.devRef .tc main_v3) = Cert.RefSpec.dstRow (m ((c : Thread nD τ).loc main_arg1)) :=
  (W2_of_ne m ρ c main_v3 (by decide)).trans (V1_v3 m ρ c)
theorem W2_v12 (c : Dev nD) : W2 m ρ c (Proc.devRef .tc main_v12) = invCol (Cert.RefSpec.dstRow (m ((c : Thread nD τ).loc main_arg1))) :=
  (W2_arr m ρ c 2).trans (((dat0 (V1 m ρ) c).arrAt_in 2 rfl _).trans ((A_eq0 (V1 m ρ) c 2).trans (V1_v12 m ρ c)))
theorem W2_arg5 (c : Dev nD) : W2 m ρ c (Proc.devRef .tc main_arg5) = m ((c : Thread nD τ).loc main_arg5) :=
  (W2_of_ne m ρ c main_arg5 (by decide)).trans (V1_arg5 m ρ c)
theorem W2_arg6 (c : Dev nD) : W2 m ρ c (Proc.devRef .tc main_arg6) = m ((c : Thread nD τ).loc main_arg6) :=
  (W2_of_ne m ρ c main_arg6 (by decide)).trans (V1_arg6 m ρ c)
theorem W2_arg7 (c : Dev nD) : W2 m ρ c (Proc.devRef .tc main_arg7) = m ((c : Thread nD τ).loc main_arg7) :=
  (W2_of_ne m ρ c main_arg7 (by decide)).trans (V1_arg7 m ρ c)

theorem V3_v38 (c : Dev nD) : V3 m ρ c main_v38
    = Cert.RefSpec.aggOf (W2 m ρ c (Proc.devRef .tc main_v1)) (W2 m ρ c (Proc.devRef .tc main_v3)) (W2 m ρ c (Proc.devRef .tc main_v28)) := by
  show StableHlo.after hostOps1 (W2 m ρ c) (Proc.devRef .tc main_v38) = _
  after_results_simp <;> rfl
theorem V3_v28 (c : Dev nD) : V3 m ρ c main_v28 = W2 m ρ c (Proc.devRef .tc main_v28) := by
  show StableHlo.after hostOps1 (W2 m ρ c) (Proc.devRef .tc main_v28) = _
  after_results_simp <;> rfl
theorem V3_v12 (c : Dev nD) : V3 m ρ c main_v12 = W2 m ρ c (Proc.devRef .tc main_v12) := by
  show StableHlo.after hostOps1 (W2 m ρ c) (Proc.devRef .tc main_v12) = _
  after_results_simp <;> rfl
theorem V3_v40 (c : Dev nD) : V3 m ρ c main_v40 = wT40 (W2 m ρ c (Proc.devRef .tc main_arg5)) := by
  show StableHlo.after hostOps1 (W2 m ρ c) (Proc.devRef .tc main_v40) = _
  after_results_simp <;> rfl
theorem V3_v42 (c : Dev nD) : V3 m ρ c main_v42 = wT40 (W2 m ρ c (Proc.devRef .tc main_arg7)) := by
  show StableHlo.after hostOps1 (W2 m ρ c) (Proc.devRef .tc main_v42) = _
  after_results_simp <;> rfl
theorem V3_v43 (c : Dev nD) : V3 m ρ c main_v43 = bRow40 (W2 m ρ c (Proc.devRef .tc main_arg6)) := by
  show StableHlo.after hostOps1 (W2 m ρ c) (Proc.devRef .tc main_v43) = _
  after_results_simp <;> rfl

/-- THE SECOND CALL'S FIRST OUTPUT is `outK` of the arguments. -/
theorem final_out (c : Dev nD) : (dat1 (V3 m ρ) c).arrAt 6 cfg1.N
    = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (KRegion.final_output (V3 m ρ) c).trans ?_
  rw [V3_v38, V3_v28, V3_v12, V3_v40, V3_v42, V3_v43, W2_v1, W2_v3, W2_v28, W2_v12, W2_arg5, W2_arg6, W2_arg7]
  rfl

/-- … and its second output the row log-softmax of that. -/
theorem final_logsoft (c : Dev nD) : (dat1 (V3 m ρ) c).arrAt 7 cfg1.N
    = KRegion.logsoft (outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (KRegion.final_logsoft (V3 m ρ) c).trans ?_
  rw [V3_v38, V3_v28, V3_v12, V3_v40, V3_v42, V3_v43, W2_v1, W2_v3, W2_v28, W2_v12, W2_arg5, W2_arg6, W2_arg7]
  rfl

/-- THE KERNEL PROGRAM'S RUN, READ: every weakly fair execution terminates with the two results at `outK` of the arguments
    and its row log-softmax, and the arguments as launched. -/
theorem run : θ_run defs (onTc (τ := τ) (main (F := Ideal))) ⟨m, fun _ => 0, ρ⟩ (fun r => ∀ c : Dev nD,
      r.2.mem ((c.tc : Thread nD τ).loc main_v44_0) = outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v44_1) = KRegion.logsoft (outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (final_out m ρ c), (h c).2.1.trans (final_logsoft m ρ c), (h c).2.2⟩)
    (Cert.KRun.run_named m ρ)

end Cert.KHost

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«172431_j71287867179094_2_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibRowMin.lean ====
/-
  Minima along one axis on the extended reals, and the host's one-axis reductions of a matrix read at a row.
  A lane minimum over the second axis of a matrix, read at a row: the fold of `min`, from the value of the
  accumulator's pattern, over that row's entries. A host reduction by minimum or by maximum over the second axis of an
  `[a, b]` matrix, read at row `r`: the fold, from the initial value, over that row's entries. General in the extents.
-/
import Idealize.ShloMosaic.Lib.ValueIdx
import Idealize.ShloMosaic.PureOps.Ideal.Laws

noncomputable section

namespace Cert.LibRowMin

open Idealize.ShloMosaic Idealize.ShloMosaic.ValueIdx

/-- On the extended reals a lane minimum over ONE axis is, at a reduced index, the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- On the extended reals a lane minimum over the second axis of an `[a, b]` matrix is, at row `r`, the fold of `min`
    from the accumulator's value over that row's entries. -/
theorem multiReduction_minimumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.minimumf.neutral .f32 hφ) (r : Fin a) :
    multiReduction .minimumf [1] ⟨1, ![a]⟩ src acc h hφ hacc (ix1 r)
      = (Finset.univ : Finset (Fin b)).fold min (Ideal.ofBits .f32 acc) (fun d => src (ix2 r d)) := by
  refine (multiReduction_minimumf_single src acc h hφ hacc (ix1 r)).trans ?_
  refine congrArg (fun f => (Finset.univ : Finset (Fin b)).fold min (Ideal.ofBits .f32 acc) f) (funext fun d => ?_)
  refine congrArg src (funext fun ax => Fin.ext ?_)
  match ax with
  | ⟨0, _⟩ => rfl
  | ⟨1, _⟩ => rfl

/-- The host's reduction by minimum over the second axis of an `[a, b]` matrix, read at row `r`: the fold of `min` from the
    initial value over that row's entries. -/
theorem hostReduce_minimumf_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.minimumf (F := Ideal) (φ := .f32)) x init h' hu (ix1 r)
      = (Finset.univ : Finset (Fin b)).fold min (init (Shape.Idx.first hu)) (fun d => x (ix2 r d)) := by
  refine (Host.reduce_eq_fold_single (FloatOps.minimumf (F := Ideal) (φ := .f32)) x init h' h hu (ix1 r)).trans ?_
  refine congrArg (fun f => (Finset.univ : Finset (Fin b)).fold min (init (Shape.Idx.first hu)) f) (funext fun d => ?_)
  refine congrArg x (funext fun ax => Fin.ext ?_)
  match ax with
  | ⟨0, _⟩ => rfl
  | ⟨1, _⟩ => rfl

/-- The host's reduction by maximum over the second axis of an `[a, b]` matrix, read at row `r`: the fold of `max` from the
    initial value over that row's entries. -/
theorem hostReduce_maximumf_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun d => x (ix2 r d)) := by
  refine (Host.reduce_eq_fold_single (FloatOps.maximumf (F := Ideal) (φ := .f32)) x init h' h hu (ix1 r)).trans ?_
  refine congrArg (fun f => (Finset.univ : Finset (Fin b)).fold max (init (Shape.Idx.first hu)) f) (funext fun d => ?_)
  refine congrArg x (funext fun ax => Fin.ext ?_)
  match ax with
  | ⟨0, _⟩ => rfl
  | ⟨1, _⟩ => rfl

end Cert.LibRowMin

end
-- ==== Proof.RefRead.lean ====
/-
  The reference's stages read at an entry, on the extended reals.

  The count floored at one is `max c 1` for some `c` (the scatter-add's value, which is never opened); repeated along the
  feature columns it reads the same at every column. A layer `(M / C) · Wlᵀ + b + X · Wrᵀ` at `(r, j)` is
  `(Σₖ (M (r,k) / C (r,k)) · Wl (j,k) + b j) + Σₖ X (r,k) · Wr (j,k)`: the host's matrix product is the plain sum, its
  transpose swaps the coordinates, its bias row repeats the vector. The row log-softmax at `(r, j)` is `Sage.logsm` of row
  `r`: the host's maximum over the row is the fold from minus infinity's pattern (taking the maximum with that pattern once
  more changes nothing), the host's sum over the row starts from zero's pattern.
-/
import proofs.«172431_j71287867179094_2_alg».proof.Proof.RefSpec
import proofs.«172431_j71287867179094_2_alg».proof.Proof.LibPlainDot
import proofs.«172431_j71287867179094_2_alg».proof.Proof.LibHostRows
import proofs.«172431_j71287867179094_2_alg».proof.Proof.LibRowMin
import proofs.«172431_j71287867179094_2_alg».proof.Proof.Sage
import Idealize.ShloMosaic.Lib.ValueLayout
import Idealize.ShloMosaic.Lib.IdealHost

noncomputable section

open scoped BigOperators

namespace Cert.RefRead

open Cert.ReferenceIdeal Cert.ReferenceIdeal.Gen Idealize.ShloMosaic Idealize.ShloMosaic.ValueIdx
open Cert.RefSpec (IArr)

/-- The count floored at one is a maximum with one. -/
theorem cmaxOf_at (d : IArr S1600000) (r : Fin 100000) : ∃ c : EReal, RefSpec.cmaxOf d (ix1 r) = max c 1 := by
  have h : RefSpec.cmaxOf d (ix1 r)
      = max ((Host.scatterAdd scatter_S100000_S1600000x1_S1600000_n_0_0_1
          (broadcastInDim S100000 ![] bcast_S_S100000 (constant S_ .f32 0x00000000#32)) (RefSpec.dstColOf d)
          (broadcastInDim S1600000 ![] bcast_S_S1600000 (constant S_ .f32 0x3F800000#32)) : FVec Ideal S100000 .f32) (ix1 r)) 1 := by
    unfold RefSpec.cmaxOf
    rw [maximumf_apply, broadcastInDim_scalar_apply, constant_apply, Ideal.ofBits_one_f32]
  exact ⟨_, h⟩

/-- Repeated along the feature columns, it reads the node's floored count at every column. -/
theorem cfullOf_at (d : IArr S1600000) (r : Fin 100000) (k : Fin 128) : RefSpec.cfullOf d (ix2 r k) = RefSpec.cmaxOf d (ix1 r) := by
  unfold RefSpec.cfullOf
  rw [Cert.LibHostRows.bcast_a1_ab_at _ rfl rfl, Cert.LibHostRows.bcast_a_a1_at _ rfl]

/-- ONE LAYER of the reference at `(r, j)`, for any extents. -/
theorem lin_at {n d e : ℕ} (M X C : FVec Ideal ⟨2, ![n, d]⟩ .f32) (Wl Wr : FVec Ideal ⟨2, ![e, d]⟩ .f32) (b : FVec Ideal ⟨1, ![e]⟩ .f32)
    (ht : (⟨2, ![e, d]⟩ : Shape).Transposes [1, 0] ⟨2, ![d, e]⟩)
    (dims1 : Fin (⟨1, ![e]⟩ : Shape).rank → Fin (⟨2, ![1, e]⟩ : Shape).rank) (hd1 : dims1 0 = 1)
    (hb1 : (⟨1, ![e]⟩ : Shape).BroadcastsInDim ⟨2, ![1, e]⟩ dims1)
    (dims2 : Fin (⟨2, ![1, e]⟩ : Shape).rank → Fin (⟨2, ![n, e]⟩ : Shape).rank) (hd20 : dims2 0 = 0) (hd21 : dims2 1 = 1)
    (hb2 : (⟨2, ![1, e]⟩ : Shape).BroadcastsInDim ⟨2, ![n, e]⟩ dims2) (r : Fin n) (j : Fin e) :
    addf (addf (Host.dotGeneral (DotDims.plain n d e) none (Host.divf M C) (transpose ⟨2, ![d, e]⟩ [1, 0] Wl ht))
        (broadcastInDim ⟨2, ![n, e]⟩ dims2 hb2 (broadcastInDim ⟨2, ![1, e]⟩ dims1 hb1 b)))
      (Host.dotGeneral (DotDims.plain n d e) none X (transpose ⟨2, ![d, e]⟩ [1, 0] Wr ht)) (ix2 r j)
      = ((∑ k : Fin d, Ideal.div (M (ix2 r k)) (C (ix2 r k)) * Wl (ix2 j k)) + b (ix1 j)) + ∑ k : Fin d, X (ix2 r k) * Wr (ix2 j k) := by
  rw [addf_apply, addf_apply, Cert.LibPlainDot.dotGeneral_apply, Cert.LibPlainDot.dotGeneral_apply,
    Cert.LibHostRows.bcast_1b_ab_at _ hd20 hd21, Cert.LibHostRows.bcast_b_1b_at _ hd1]
  refine congrArg₂ (· + ·) (congrArg₂ (· + ·) (Finset.sum_congr rfl fun k _ => ?_) rfl) (Finset.sum_congr rfl fun k _ => ?_)
  · rw [hostDivf_apply, transpose_ix2_apply]
  · rw [transpose_ix2_apply]

/-- The hidden features at `(r, j)`. -/
theorem hidOf_at (s d : IArr S1600000) (x0 : FVec Ideal S100000x128 .f32) (x2 : FVec Ideal S128x128 .f32) (x3 : FVec Ideal S128 .f32)
    (x4 : FVec Ideal S128x128 .f32) (r : Fin 100000) (j : Fin 128) :
    RefSpec.hidOf s d x0 x2 x3 x4 (ix2 r j)
      = max (((∑ k : Fin 128, Ideal.div (RefSpec.aggOf s d x0 (ix2 r k)) (RefSpec.cmaxOf d (ix1 r)) * x2 (ix2 j k)) + x3 (ix1 j))
          + ∑ k : Fin 128, x0 (ix2 r k) * x4 (ix2 j k)) (Ideal.ofBits .f32 0x00000000#32) := by
  unfold RefSpec.hidOf RefSpec.lin1
  rw [maximumf_apply, broadcastInDim_scalar_apply, constant_apply]
  refine congrArg (fun v => max v (Ideal.ofBits .f32 0x00000000#32)) ?_
  refine (lin_at (n := 100000) (d := 128) (e := 128) _ _ _ _ _ _ _ _ rfl _ _ rfl rfl _ r j).trans ?_
  simp only [cfullOf_at]

/-- The second layer at `(r, j)`. -/
theorem out0Of_at (s d : IArr S1600000) (H : FVec Ideal S100000x128 .f32) (x5 : FVec Ideal S40x128 .f32) (x6 : FVec Ideal S40 .f32)
    (x7 : FVec Ideal S40x128 .f32) (r : Fin 100000) (j : Fin 40) :
    RefSpec.out0Of s d H x5 x6 x7 (ix2 r j)
      = ((∑ k : Fin 128, Ideal.div (RefSpec.aggOf s d H (ix2 r k)) (RefSpec.cmaxOf d (ix1 r)) * x5 (ix2 j k)) + x6 (ix1 j))
          + ∑ k : Fin 128, H (ix2 r k) * x7 (ix2 j k) := by
  unfold RefSpec.out0Of RefSpec.lin2
  refine (lin_at (n := 100000) (d := 128) (e := 40) _ _ _ _ _ _ _ _ rfl _ _ rfl rfl _ r j).trans ?_
  simp only [cfullOf_at]

/-- The host's exponential and logarithm are taken entry by entry. -/
theorem hostExp_at {s : Shape} (v : FVec Ideal s .f32) (i : s.Idx) : (Host.exp v) i = Ideal.exp (v i) := rfl
theorem hostLog_at {s : Shape} (v : FVec Ideal s .f32) (i : s.Idx) : (Host.log v) i = Ideal.log (v i) := rfl

/-- A row less its maximum, at `(r, j)`. -/
theorem shifted_at (O : FVec Ideal S100000x40 .f32) (r : Fin 100000) (j : Fin 40) :
    RefSpec.shifted O (ix2 r j)
      = O (ix2 r j) - Sage.rowMax (Ideal.ofBits .f32 0xFF800000#32) (fun r j => O (ix2 r j)) r := by
  unfold RefSpec.shifted
  rw [subf_apply, Cert.LibHostRows.bcast_a1_ab_at _ rfl rfl, Cert.LibHostRows.bcast_a_a1_at _ rfl, maximumf_apply,
    broadcastInDim_scalar_apply, constant_apply,
    Cert.LibRowMin.hostReduce_maximumf_rows (a := 100000) (b := 40) O _ _ (by decide) _ r]
  refine congrArg (fun v => O (ix2 r j) - v) ?_
  exact Sage.max_rowMax (Ideal.ofBits .f32 0xFF800000#32) (fun r j => O (ix2 r j)) r

/-- THE REFERENCE'S ROW LOG-SOFTMAX at `(r, j)`. -/
theorem logsm_at (O : FVec Ideal S100000x40 .f32) (r : Fin 100000) (j : Fin 40) :
    RefSpec.logsm O (ix2 r j)
      = Sage.logsm (Ideal.ofBits .f32 0xFF800000#32) (Ideal.ofBits .f32 0x00000000#32) (fun r j => O (ix2 r j)) r j := by
  unfold RefSpec.logsm Sage.logsm
  rw [subf_apply, shifted_at, Cert.LibHostRows.bcast_a1_ab_at _ rfl rfl, hostLog_at, Cert.LibHostRows.bcast_a_a1_at _ rfl,
    Cert.LibHostRows.hostReduceAdd_rows (a := 100000) (b := 40) _ _ _ (by decide) _ r]
  refine congrArg (fun v => (O (ix2 r j) - Sage.rowMax (Ideal.ofBits .f32 0xFF800000#32) (fun r j => O (ix2 r j)) r) - Ideal.log v) ?_
  refine congrArg₂ (· + ·) rfl (Finset.sum_congr rfl fun d _ => ?_)
  rw [hostExp_at, shifted_at]

end Cert.RefRead

end
-- ==== Proof.Bridge.lean ====
/-
  The two programs compute one function: the reference's results `RefSpec.out0` and its row log-softmax are the kernel's
  `KHost.outK` and `KRegion.logsoft` of it, entry by entry.

  Both read the same neighbour sums (one shared term, never opened) and the same floored counts `max c 1`. At an entry
  `(r, j)` the kernel's layer is `(Σₖ (a (r,k) · (1 / max c 1)) · Wl (j,k) + Σₖ x (r,k) · Wr (j,k)) + b j` — its transposed
  weights read back at `(j, k)`, its bias row at `j`, its scale column at `1 / max c 1` — and the reference's is
  `(Σₖ (a (r,k) / max c 1) · Wl (j,k) + b j) + Σₖ x (r,k) · Wr (j,k)`: `Sage.layer_law`. The rectifier and the log-softmax are
  the same expressions on both sides; the reference's sum of exponentials starts from zero's pattern, which is zero.
  So the hidden features agree, hence (the second layer reading them through the same neighbour sum) the first results
  agree, hence the second.
-/
import proofs.«172431_j71287867179094_2_alg».proof.Proof.RefRead
import proofs.«172431_j71287867179094_2_alg».proof.Proof.KHost

noncomputable section

open scoped BigOperators

namespace Cert.Bridge

open Idealize.ShloMosaic Idealize.ShloMosaic.ValueIdx

abbrev S100000x128 : Shape := ⟨2, ![100000, 128]⟩
abbrev S100000x40 : Shape := ⟨2, ![100000, 40]⟩
abbrev S128x128 : Shape := ⟨2, ![128, 128]⟩
abbrev S40x128 : Shape := ⟨2, ![40, 128]⟩
abbrev S128 : Shape := ⟨1, ![128]⟩
abbrev S40 : Shape := ⟨1, ![40]⟩
abbrev IArr (s : Shape) : Type := (⟨s, .i32⟩ : BufTy).Contents (Elt Ideal)
abbrev S2x1600000 : Shape := ⟨2, ![2, 1600000]⟩
abbrev S1600000 : Shape := ⟨1, ![1600000]⟩

/-- The kernel's stored scale column at a node: one over the floored count. -/
theorem invCol_at (d : IArr S1600000) (r : Fin 100000) :
    KHost.invCol d (ix2 r (0 : Fin 1)) = Ideal.div 1 (RefSpec.cmaxOf d (ix1 r)) := by
  unfold KHost.invCol
  rw [Cert.LibHostRows.bcast_a_a1_at _ rfl, hostDivf_apply, broadcastInDim_scalar_apply, constant_apply, Ideal.ofBits_one_f32]

/-- The kernel's transposed weights read back. -/
theorem wT128_at (W : FVec Ideal S128x128 .f32) (k j : Fin 128) : KHost.wT128 W (ix2 k j) = W (ix2 j k) := by
  unfold KHost.wT128
  rw [truncf_apply, transpose_ix2_apply]
theorem wT40_at (W : FVec Ideal S40x128 .f32) (k : Fin 128) (j : Fin 40) : KHost.wT40 W (ix2 k j) = W (ix2 j k) := by
  unfold KHost.wT40
  rw [truncf_apply, transpose_ix2_apply]

/-- The kernel's bias row reads the bias vector. -/
theorem bRow128_at (b : FVec Ideal S128 .f32) (j : Fin 128) : KHost.bRow128 b (ix2 (0 : Fin 1) j) = b (ix1 j) := by
  unfold KHost.bRow128
  rw [shapeCast_a_1a_apply]
theorem bRow40_at (b : FVec Ideal S40 .f32) (j : Fin 40) : KHost.bRow40 b (ix2 (0 : Fin 1) j) = b (ix1 j) := by
  unfold KHost.bRow40
  rw [shapeCast_a_1a_apply]

/-- THE HIDDEN FEATURES AGREE. -/
theorem hid_eq (x0 : FVec Ideal S100000x128 .f32) (x1 : IArr S2x1600000) (x2 : FVec Ideal S128x128 .f32) (x3 : FVec Ideal S128 .f32)
    (x4 : FVec Ideal S128x128 .f32) : RefSpec.hid x0 x1 x2 x3 x4 = KHost.hidK x0 x1 x2 x3 x4 := by
  funext i
  obtain ⟨r, j, rfl⟩ : ∃ (r : Fin 100000) (j : Fin 128), i = ix2 r j := ⟨i 0, i 1, eq_ix2 i⟩
  unfold RefSpec.hid KHost.hidK
  rw [Cert.RefRead.hidOf_at]
  show _ = max (Sage.layer (RefSpec.aggOf (RefSpec.srcRow x1) (RefSpec.dstRow x1) x0) x0 (KHost.invCol (RefSpec.dstRow x1))
    (KHost.wT128 x2) (KHost.wT128 x4) (KHost.bRow128 x3) r j) (Ideal.ofBits .f32 0x00000000#32)
  unfold Sage.layer
  rw [invCol_at, bRow128_at]
  simp only [wT128_at]
  obtain ⟨c, hc⟩ := Cert.RefRead.cmaxOf_at (RefSpec.dstRow x1) r
  rw [hc]
  exact congrArg (fun v => max v (Ideal.ofBits .f32 0x00000000#32)) (Sage.layer_law _ _ _ _ c _).symm

/-- THE FIRST RESULTS AGREE. -/
theorem out_eq (x0 : FVec Ideal S100000x128 .f32) (x1 : IArr S2x1600000) (x2 : FVec Ideal S128x128 .f32) (x3 : FVec Ideal S128 .f32)
    (x4 : FVec Ideal S128x128 .f32) (x5 : FVec Ideal S40x128 .f32) (x6 : FVec Ideal S40 .f32) (x7 : FVec Ideal S40x128 .f32) :
    RefSpec.out0 x0 x1 x2 x3 x4 x5 x6 x7 = KHost.outK x0 x1 x2 x3 x4 x5 x6 x7 := by
  unfold RefSpec.out0 KHost.outK
  rw [hid_eq]
  generalize KHost.hidK x0 x1 x2 x3 x4 = H
  funext i
  obtain ⟨r, j, rfl⟩ : ∃ (r : Fin 100000) (j : Fin 40), i = ix2 r j := ⟨i 0, i 1, eq_ix2 i⟩
  rw [Cert.RefRead.out0Of_at]
  show _ = Sage.layer (RefSpec.aggOf (RefSpec.srcRow x1) (RefSpec.dstRow x1) H) H (KHost.invCol (RefSpec.dstRow x1))
    (KHost.wT40 x5) (KHost.wT40 x7) (KHost.bRow40 x6) r j
  unfold Sage.layer
  rw [invCol_at, bRow40_at]
  simp only [wT40_at]
  obtain ⟨c, hc⟩ := Cert.RefRead.cmaxOf_at (RefSpec.dstRow x1) r
  rw [hc]
  exact (Sage.layer_law _ _ _ _ c _).symm

/-- THE ROW LOG-SOFTMAXES AGREE. -/
theorem logsm_eq (O : FVec Ideal S100000x40 .f32) : RefSpec.logsm O = KRegion.logsoft O := by
  funext i
  obtain ⟨r, j, rfl⟩ : ∃ (r : Fin 100000) (j : Fin 40), i = ix2 r j := ⟨i 0, i 1, eq_ix2 i⟩
  rw [Cert.RefRead.logsm_at, Ideal.ofBits_zero_f32]
  rfl

end Cert.Bridge

end
-- ==== Proof.lean ====
/-
  The certificate's five claims for the two-layer graph-convolution network.

  The three frames: the word-level kernel and its idealization by their generated several-region frames; the reference —
  a straight line of host operations — by its run with the results dropped. The idealization rewrote nothing, so `preserves` is trivial. The
  algebraic claim: the idealized kernel's run ends with its two results at `KHost.outK` of the arguments and the row
  log-softmax of that (the two pallas_calls' blocks assembled, the host operations around them read back); the idealized
  reference's run ends at `RefSpec.out0` of the arguments and its row log-softmax; the arguments agree, and the two pairs
  of functions are one (`Bridge.out_eq`, `Bridge.logsm_eq`): the kernel's `a · (1 / max c 1)` is the reference's
  `a / max c 1`, and the three terms of each layer are added in another order.
-/
import proofs.«172431_j71287867179094_2_alg».proof.Defs
import proofs.«172431_j71287867179094_2_alg».proof.Proof.Gen.Kernel
import proofs.«172431_j71287867179094_2_alg».proof.Proof.Gen.Kernel.Skeleton
import proofs.«172431_j71287867179094_2_alg».proof.Proof.Gen.Kernel.Launch
import proofs.«172431_j71287867179094_2_alg».proof.Proof.Gen.Kernel.Points
import proofs.«172431_j71287867179094_2_alg».proof.Proof.Gen.Kernel.Frame
import proofs.«172431_j71287867179094_2_alg».proof.Proof.Gen.KernelIdeal
import proofs.«172431_j71287867179094_2_alg».proof.Proof.Gen.KernelIdeal.Skeleton
import proofs.«172431_j71287867179094_2_alg».proof.Proof.Gen.KernelIdeal.Launch
import proofs.«172431_j71287867179094_2_alg».proof.Proof.Gen.KernelIdeal.Points
import proofs.«172431_j71287867179094_2_alg».proof.Proof.Gen.KernelIdeal.Frame
import proofs.«172431_j71287867179094_2_alg».proof.Proof.Gen.ReferenceIdeal
import proofs.«172431_j71287867179094_2_alg».proof.Proof.Gen.Pre_finite_inputs
import proofs.«172431_j71287867179094_2_alg».proof.Proof.RefValue
import proofs.«172431_j71287867179094_2_alg».proof.Proof.KHost
import proofs.«172431_j71287867179094_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.RefRun.run m ρ)

theorem preserves : Cert.preserves_Kernel_KernelIdeal := trivial

/-- Both idealized programs, run from memories that agree on the arguments, end with the same two results. -/
theorem algebraic : Cert.algebraic_KernelIdeal_ReferenceIdeal := by
  intro m ρ m' ρ' _ hagree
  refine ⟨fun c => Cert.KHost.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.KRegion.logsoft (Cert.KHost.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))),
    Cert.KHost.run m ρ, ?_⟩
  refine (θ_run Cert.ReferenceIdeal.defs _ _).mono (fun _ h c => ⟨(h c).1.trans ?_, (h c).2.1.trans ?_, (h c).2.2⟩)
    (Cert.RefRun.run m' ρ')
  · rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact Cert.Bridge.out_eq _ _ _ _ _ _ _ _
  · rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact (Cert.Bridge.logsm_eq _).trans (congrArg Cert.KRegion.logsoft (Cert.Bridge.out_eq _ _ _ _ _ _ _ _))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
